-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 83
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000x128, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1650000, .i32⟩
  | .hbm, ⟨30, _⟩ => ⟨S1650000, .i1⟩
  | .hbm, ⟨31, _⟩ => ⟨S_, .i32⟩
  | .hbm, ⟨32, _⟩ => ⟨S1650000, .i32⟩
  | .hbm, ⟨33, _⟩ => ⟨S1650000, .i32⟩
  | .hbm, ⟨34, _⟩ => ⟨S1650000, .i32⟩
  | .hbm, ⟨35, _⟩ => ⟨S1650000x1, .i32⟩
  | .hbm, ⟨36, _⟩ => ⟨S1650000, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000, .f32⟩
  | .hbm, ⟨46, _⟩ => ⟨S1650000, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S1x128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S5000x128 : S1x128.Broadcasts S5000x128
  dot_S5000x128_S128x128_S5000x128_1_0_0_1_n_n_wf : DotDims.WF S5000x128 S128x128 S5000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S50000x128, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S1650000, .i32⟩
  | .hbm, ⟨30, _⟩ => ⟨S1650000, .i1⟩
  | .hbm, ⟨31, _⟩ => ⟨S_, .i32⟩
  | .hbm, ⟨32, _⟩ => ⟨S1650000, .i32⟩
  | .hbm, ⟨33, _⟩ => ⟨S1650000, .i32⟩
  | .hbm, ⟨34, _⟩ => ⟨S1650000, .i32⟩
  | .hbm, ⟨35, _⟩ => ⟨S1650000x1, .i32⟩
  | .hbm, ⟨36, _⟩ => ⟨S1650000, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000, .f32⟩
  | .hbm, ⟨46, _⟩ => ⟨S1650000, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x1, .f32⟩
  | .hbm, ⟨57, _⟩ => ⟨S1650000x128, .f32⟩
  | .hbm, ⟨58, _⟩ => ⟨S1650000x128, .f32⟩
  | .hbm, ⟨59, _⟩ => ⟨S_, .f32⟩
  | .hbm, ⟨60, _⟩ => ⟨S50000x128, .f32⟩
  | .hbm, ⟨61, _⟩ => ⟨S1650000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S_, .f32⟩
  | .hbm, ⟨97, _⟩ => ⟨S50000x128, .f32⟩
  | .hbm, ⟨98, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf

class Facts : Prop extends Facts₀ where

variable [Facts]
-- ==== Proof.KRun.lean ====
/-
  The idealized kernel's run with its result named.

  The program is three grid regions among stretches of host operations. Its run is read segment by segment: the buffer
  contents at each boundary are a fold from the launch memory (`Gen.W0` … `Gen.W7`), and at the end every unscoped buffer
  holds the last boundary's contents. The frame keeps of this only that the argument arrays end as launched; here the same
  run is stated with one more conjunct — the result array %60 ends at `Gen.W7` read at its buffer — which is what a value
  proof opens.
-/
import proofs.«161189_j53137335386622_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array %60 at the last boundary's
    contents and the argument arrays as launched: the segments' launch, the last thread state read against the final
    state, the result by name and each argument walked back through the fold. -/
theorem run_result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Gen

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.KRegion0.lean ====
/-
  Region 0 of the idealized kernel: the feature transform h = x·W, block of rows by block of rows.

  Grid point t (of 10) loads rows 5000t … 5000t+4999 of x and the whole of W, multiplies them on the matrix unit into a zero
  accumulator (the operands' change of format to bf16 is the identity on the extended reals), and writes the product back as
  rows 5000t … 5000t+4999 of the result. Entry (r, q) of the block's product is Σ_k x[5000t+r, k]·W[k, q]: the rows of a
  product are the product of the rows. The ten blocks tile the result, so the array ends holding the whole product.
-/
import proofs.«161189_j53137335386622_1_alg».proof.Proof.Gen.KernelIdeal.Frame
import proofs.«161189_j53137335386622_1_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Lib.PlainDot
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one store holds the product of the two loaded blocks. -/
theorem pay_eq (x0 : Vec Ideal S5000x128 .f32) (x1 : Vec Ideal S128x128 .f32) :
    k0_pay1 x0 x1 = rowsByCols x0 x1 := by
  unfold k0_pay1
  exact matmul_zero_eq dot_S5000x128_S128x128_S5000x128_1_0_0_1_n_n rfl none _ _

/-- The block indices over the grid: x and the result move down one block of rows per point, W stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of the arrays the region finds at x's and W's buffers. -/
abbrev product (c : Dev nD) : S50000x128.Idx → EReal := rowsByCols (V c main_arg0) (V c main_arg2)

/-- What point t writes back is block t of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq]
  obtain ⟨e0, e1, e2, e3, e4, e5⟩ := idx_facts t
  funext j
  show rowsByCols (iblk0 V c 0 t) (iblk0 V c 1 t) j = product V c (((cfg0.win 2).blk t).view.emb j)
  refine rowsByCols_congr _ _ _ _ j _ (fun k => ?_) (fun k => ?_)
  · show V c main_arg0 (((cfg0.win 0).blk t).view.emb (ix2 (j 0) k)) = V c main_arg0 (ix2 ((((cfg0.win 2).blk t).view.emb j) 0) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 k (j 1))) = V c main_arg2 (ix2 k ((((cfg0.win 2).blk t).view.emb j) 1))
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row p lies in the block of point p / 5000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; dsimp only; omega
  | ⟨1, _⟩ => show win0_2.index _ (1 : Fin 2) * 128 ≤ (i 1).val ∧ (i 1).val < win0_2.index _ (1 : Fin 2) * 128 + 128; rw [e5]; omega

/-- After the region the result array holds the whole product x·W. -/
theorem final (c : Dev nD) : (dat0 V c).arrAt 2 cfg0.N = product V c :=
  (dat0 V c).arrAt_eq_of_cover 2 (product V c) (fun t _ => flushed_eq V c t) (cover)

end Cert.KernelIdeal.Region0

end
-- ==== Proof.AllReal.lean ====
/-
  "Every entry is a real number": the property of an array of extended reals under which the usual laws of arithmetic
  (distributivity, cancelling a common term, moving a factor across a sum) hold entry by entry.
-/
import Idealize.ShloMosaic.PureOps.Ideal

namespace Cert.Bridge

open Idealize.ShloMosaic

/-- Every entry of `v` is a real number: neither +∞ nor −∞. -/
def AllReal {S : Shape} (v : S.Idx → EReal) : Prop := ∀ i, ∃ r : ℝ, v i = (r : EReal)

end Cert.Bridge
-- ==== Proof.Spec.lean ====
/-
  Batch normalisation over the rows of a 50000×128 array, as the two programs compute it, index by index on the extended reals.

  For an array `o` and a column `q`: the column sum S(q) = Σ_p o[p,q] and the column sum of squares Q(q) = Σ_p o[p,q]²;
  the mean μ(q) = S(q)/N with N = 50000. The kernel takes the variance as Q(q)/N − μ(q)², the reference as
  Σ_p (o[p,q] − μ(q))²/N. Either way the result is max(((o[p,q] − μ(q))·rsqrt(var(q) + ε))·γ(q) + β(q), 0).
  The two variances agree when every entry of `o` is a real number (`var_eq`, in Moments.lean); at an infinite entry they do not.
-/
import proofs.«161189_j53137335386622_1_alg».proof.Proof.AllReal
import Idealize.ShloMosaic.Lib.ValueIdx

noncomputable section

namespace Cert.Bridge

open Idealize.ShloMosaic Idealize.ShloMosaic.ValueIdx

/-- The array of node features: 50000 rows, 128 columns. -/
abbrev SNxD : Shape := ⟨2, ![50000, 128]⟩

/-- The number of rows as the programs spell it: the f32 pattern of 50000.0. -/
def nRows : EReal := Ideal.ofBits .f32 0x47435000#32
/-- The variance offset ε as the programs spell it: the f32 pattern nearest 1e-5. -/
def epsBN : EReal := Ideal.ofBits .f32 0x3727C5AC#32

/-- S(q) = Σ_p o[p,q]. -/
def colSum (o : SNxD.Idx → EReal) (q : Fin 128) : EReal := ∑ p : Fin 50000, o (ix2 p q)
/-- Q(q) = Σ_p o[p,q]². -/
def colSumSq (o : SNxD.Idx → EReal) (q : Fin 128) : EReal := ∑ p : Fin 50000, o (ix2 p q) * o (ix2 p q)
/-- μ(q) = S(q)/N. -/
def colMean (o : SNxD.Idx → EReal) (q : Fin 128) : EReal := Ideal.div (colSum o q) nRows
/-- The kernel's variance: Q(q)/N − μ(q)². -/
def varMoments (o : SNxD.Idx → EReal) (q : Fin 128) : EReal := Ideal.div (colSumSq o q) nRows - colMean o q * colMean o q
/-- The reference's variance: Σ_p (o[p,q] − μ(q))²/N. -/
def varCentred (o : SNxD.Idx → EReal) (q : Fin 128) : EReal :=
  Ideal.div (∑ p : Fin 50000, (o (ix2 p q) - colMean o q) * (o (ix2 p q) - colMean o q)) nRows

/-- Normalise, scale, shift and clamp at zero: max(((o[p,q] − μ(q))·rsqrt(v(q) + ε))·γ(q) + β(q), 0). -/
def bnRelu (o : SNxD.Idx → EReal) (mu v g be : Fin 128 → EReal) : SNxD.Idx → EReal :=
  fun i => max (((o i - mu (i 1)) * Ideal.rsqrt (v (i 1) + epsBN)) * g (i 1) + be (i 1)) (Ideal.ofBits .f32 0x00000000#32)

end Cert.Bridge

end
-- ==== Proof.LibBatchMoments.lean ====
/-
  Batch moments over the extended reals.

  A column of real data has two spellings of its variance: the mean of the squares minus the
  square of the mean, and the mean of the squared deviations from the mean. Over the extended
  reals (where `⊤ - ⊤` is junk) the two agree when every entry is a real number; this file
  proves that, in the operations as programs spell them (`Ideal.div` for the quotient by the
  row count), together with the regrouping of a sum over `T * B` consecutive rows into `T`
  blocks of `B` rows, which is how a blocked accumulation meets a whole-column sum.
-/
import Mathlib.Data.EReal.Basic
import Mathlib.Data.EReal.Operations
import Mathlib.Algebra.BigOperators.Fin
import Mathlib.Algebra.BigOperators.Intervals
import Mathlib.Algebra.BigOperators.Ring.Finset
import Mathlib.Tactic.Ring
import Mathlib.Tactic.FieldSimp
import Mathlib.Tactic.NormNum
import Idealize.ShloMosaic.PureOps.Ideal

namespace Cert.LibBatchMoments

open Idealize.ShloMosaic
open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- The variance identity over the reals: with `S = ∑ o`, `Q = ∑ o²` and `n` the number of
    entries, `Q / n - (S / n)² = (∑ (o - S / n)²) / n`, written with products by `1 / n`. -/
theorem var_two_ways_real {ι : Type*} [Fintype ι] (o : ι → ℝ) (n : ℝ) (hn : n ≠ 0)
    (hcard : (Fintype.card ι : ℝ) = n) :
    (∑ i, o i * o i) * (1 / n) - (∑ i, o i) * (1 / n) * ((∑ i, o i) * (1 / n))
      = (∑ i, (o i - (∑ j, o j) * (1 / n)) * (o i - (∑ j, o j) * (1 / n))) * (1 / n) := by
  have expand : ∑ i, (o i - (∑ j, o j) * (1 / n)) * (o i - (∑ j, o j) * (1 / n))
      = (∑ i, o i * o i) - 2 * ((∑ j, o j) * (1 / n)) * (∑ i, o i)
        + n * (((∑ j, o j) * (1 / n)) * ((∑ j, o j) * (1 / n))) := by
    have h1 : ∀ i, (o i - (∑ j, o j) * (1 / n)) * (o i - (∑ j, o j) * (1 / n))
        = o i * o i - 2 * ((∑ j, o j) * (1 / n)) * o i
          + ((∑ j, o j) * (1 / n)) * ((∑ j, o j) * (1 / n)) := fun i => by ring
    rw [Finset.sum_congr rfl (fun i _ => h1 i), Finset.sum_add_distrib, Finset.sum_sub_distrib,
      ← Finset.mul_sum, Finset.sum_const, Finset.card_univ, nsmul_eq_mul, hcard]
  rw [expand]
  field_simp
  ring

/-- `E[o²] - E[o]² = E[(o - E[o])²]` for real data, over the extended reals and in the
    operations as programs spell them: every mean is `Ideal.div` of a sum by the row count
    `n`. The hypothesis that the data is real is in the type of `o`. -/
theorem var_two_ways {ι : Type*} [Fintype ι] (o : ι → ℝ) (n : ℝ) (hn : n ≠ 0)
    (hcard : (Fintype.card ι : ℝ) = n) :
    Ideal.div (∑ i, (o i : EReal) * (o i : EReal)) (n : EReal)
      - Ideal.div (∑ i, (o i : EReal)) (n : EReal) * Ideal.div (∑ i, (o i : EReal)) (n : EReal)
    = Ideal.div (∑ i, ((o i : EReal) - Ideal.div (∑ j, (o j : EReal)) (n : EReal))
        * ((o i : EReal) - Ideal.div (∑ j, (o j : EReal)) (n : EReal))) (n : EReal) := by
  have hmean : Ideal.div (∑ j, (o j : EReal)) (n : EReal)
      = (((∑ j, o j) * (1 / n) : ℝ) : EReal) := by
    rw [Ideal.div_coe hn, ← coe_sum, ← EReal.coe_mul]
  have hsq : (∑ i, (o i : EReal) * (o i : EReal)) = ((∑ i, o i * o i : ℝ) : EReal) := by
    rw [coe_sum]
    exact Finset.sum_congr rfl (fun i _ => (EReal.coe_mul _ _).symm)
  have hdev : (∑ i, ((o i : EReal) - (((∑ j, o j) * (1 / n) : ℝ) : EReal))
        * ((o i : EReal) - (((∑ j, o j) * (1 / n) : ℝ) : EReal)))
      = ((∑ i, (o i - (∑ j, o j) * (1 / n)) * (o i - (∑ j, o j) * (1 / n)) : ℝ) : EReal) := by
    rw [coe_sum]
    exact Finset.sum_congr rfl (fun i _ => by rw [← EReal.coe_sub, ← EReal.coe_mul])
  rw [hmean, hsq, hdev, Ideal.div_coe hn, Ideal.div_coe hn, ← EReal.coe_mul, ← EReal.coe_mul,
    ← EReal.coe_mul, ← EReal.coe_sub, var_two_ways_real o n hn hcard]

/-- A sum over `T * B` consecutive naturals is the sum over `T` blocks of `B`: entry `p` of the
    whole range is entry `r` of block `t` at `p = B * t + r`. -/
theorem sum_blocked {M : Type*} [AddCommMonoid M] (T B : ℕ) (g : ℕ → M) :
    ∑ p ∈ Finset.range (T * B), g p
      = ∑ t ∈ Finset.range T, ∑ r ∈ Finset.range B, g (B * t + r) := by
  induction T with
  | zero => simp
  | succ T ih =>
    rw [Finset.sum_range_succ, ← ih, Nat.succ_mul, Finset.sum_range_add, Nat.mul_comm T B]

/-- The instance at 50000 rows in 10 blocks of 5000, over `Fin` types. -/
theorem sum_rows_blocked {M : Type*} [AddCommMonoid M] (g : ℕ → M) :
    ∑ p : Fin 50000, g p.val = ∑ t ∈ Finset.range 10, ∑ r : Fin 5000, g (5000 * t + r.val) := by
  rw [Fin.sum_univ_eq_sum_range (fun p => g p), show (50000 : ℕ) = 10 * 5000 from rfl,
    sum_blocked 10 5000 g]
  exact Finset.sum_congr rfl
    (fun t _ => (Fin.sum_univ_eq_sum_range (fun r => g (5000 * t + r)) 5000).symm)

end Cert.LibBatchMoments
-- ==== Proof.KRegion1.lean ====
/-
  Region 1 of the idealized kernel: the batch statistics, accumulated block of rows by block of rows.

  Grid point t (of 10) loads rows 5000t … 5000t+4999 of the [50000,128] operand and ADDS, column by column, the block's sum
  and the block's sum of squares into two one-row outputs whose block never moves: the first point stores a zero row into each
  before adding, and the rows are written back to their arrays after the last point only. So after point n each output holds,
  at column q, the sum over the rows of blocks 0 … n (by induction on the point), after the last point the sum over all ten
  blocks, and ten blocks of 5000 consecutive rows are the 50000 rows: the two arrays end holding
  S(q) = Σ_p o[p,q] and Q(q) = Σ_p o[p,q]².
-/
import proofs.«161189_j53137335386622_1_alg».proof.Proof.Gen.KernelIdeal.Frame
import proofs.«161189_j53137335386622_1_alg».proof.Proof.Spec
import proofs.«161189_j53137335386622_1_alg».proof.Proof.LibBatchMoments
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Bridge
open Idealize.ShloMosaic.Pipeline (Dat)

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

section CaseValues
variable {F : FTy → Type} [FloatOps F]

/-- A point after the first: the body loads the block and the running column sums, and stores their sum with the block's column sums. -/
theorem out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (xo1 xo2 : Vec F S1x128 .f32) :
    out1_B_1 c i a1 h1 a2 h2 a3 h3 hc x0 xo1 xo2 = k1_pay4 x0 xo1 := by
  unfold out1_B_1
  rw [View.read_writes_eq_canon _ _ _ (cover1_B_1 c i a1 h1 a2 h2 a3 h3 hc x0 xo1 xo2)]
  unfold kernelRun1_B
  dsimp only
  rw [View.canon_unit_zero hz]
  simp only [View.readAt_eq_ld, h1.read_unread, h2.read_unread, View.ld_unit_zero (S := S5000x128) hz,
    View.ld_unit_zero (S := S1x128) hz]

/-- A point after the first, second output: the running column sums of squares plus the block's. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x0 : Vec F S5000x128 .f32) (xo1 xo2 : Vec F S1x128 .f32) :
    out1_B_2 c i a1 h1 a2 h2 a3 h3 hc x0 xo1 xo2 = k1_pay5 x0 xo2 := by
  unfold out1_B_2
  rw [View.read_writes_eq_canon _ _ _ (cover1_B_2 c i a1 h1 a2 h2 a3 h3 hc x0 xo1 xo2)]
  unfold kernelRun1_B
  dsimp only
  rw [View.canon_unit_zero hz]
  simp only [View.readAt_eq_ld, h1.read_unread, h3.read_unread, View.ld_unit_zero (S := S5000x128) hz,
    View.ld_unit_zero (S := S1x128) hz]

/-- The first point: the body stores the zero row, reads it back, and stores it plus the block's column sums. -/
theorem out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) :
    out1_A_1 c i a1 h1 a2 h2 a3 h3 hc x0 = k1_pay4 x0 k1_pay1 := by
  unfold out1_A_1
  rw [View.read_writes_eq_canon _ _ _ (cover1_A_1 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- The first point, second output. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x0 : Vec F S5000x128 .f32) :
    out1_A_2 c i a1 h1 a2 h2 a3 h3 hc x0 = k1_pay5 x0 k1_pay2 := by
  unfold out1_A_2
  rw [View.read_writes_eq_canon _ _ _ (cover1_A_2 c i a1 h1 a2 h2 a3 h3 hc x0)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]
end CaseValues

/-! ## The arithmetic of one point, entry by entry -/

/-- The zero row the first point stores: 0 at every entry. -/
theorem pay1_apply (j : S1x128.Idx) : k1_pay1 (F := Ideal) j = 0 := Ideal.ofBits_zero_f32

/-- The zero row the first point stores into the second output. -/
theorem pay2_apply (j : S1x128.Idx) : k1_pay2 (F := Ideal) j = 0 := Ideal.ofBits_zero_f32

/-- Column q of what a point stores into the first output: the running entry plus the sum over the block's 5000 rows of column q. -/
theorem pay4_apply (x0 : Vec Ideal S5000x128 .f32) (xo : Vec Ideal S1x128 .f32) (q : Fin 128) :
    k1_pay4 x0 xo (ix2 (0 : Fin 1) q) = xo (ix2 (0 : Fin 1) q) + ∑ r : Fin 5000, x0 (ix2 r q) := by
  unfold k1_pay4 k1_pay3
  simp only [shapeCast_self]
  rw [addf_apply, shapeCast_a_1a_apply]
  refine congrArg (xo (ix2 (0 : Fin 1) q) + ·) ?_
  refine (Ideal.multiReduction_add_single (s := S5000x128) (t := S128) (a := (0 : Fin 2)) x0 0x00000000#32
    reduces_S5000x128_S128 (.inl rfl) rfl (ix1 q)).trans ?_
  show ∑ r : Fin 5000, x0 (reduces_S5000x128_S128.lift (ix1 q) r) = _
  refine Finset.sum_congr rfl fun r _ => congrArg x0 (funext fun a => Fin.ext ?_)
  match a with
  | ⟨0, _⟩ => rfl
  | ⟨1, _⟩ => rfl

/-- Column q of what a point stores into the second output: the running entry plus the sum over the block's rows of the squares. -/
theorem pay5_apply (x0 : Vec Ideal S5000x128 .f32) (xo : Vec Ideal S1x128 .f32) (q : Fin 128) :
    k1_pay5 x0 xo (ix2 (0 : Fin 1) q) = xo (ix2 (0 : Fin 1) q) + ∑ r : Fin 5000, x0 (ix2 r q) * x0 (ix2 r q) := by
  unfold k1_pay5 k1_pay3
  simp only [shapeCast_self]
  rw [addf_apply, shapeCast_a_1a_apply]
  refine congrArg (xo (ix2 (0 : Fin 1) q) + ·) ?_
  refine (Ideal.multiReduction_add_single (s := S5000x128) (t := S128) (a := (0 : Fin 2)) (mulf x0 x0) 0x00000000#32
    reduces_S5000x128_S128 (.inl rfl) rfl (ix1 q)).trans ?_
  show ∑ r : Fin 5000, x0 (reduces_S5000x128_S128.lift (ix1 q) r) * x0 (reduces_S5000x128_S128.lift (ix1 q) r) = _
  refine Finset.sum_congr rfl fun r _ => ?_
  have e : reduces_S5000x128_S128.lift (ix1 q) r = ix2 r q := funext fun a => Fin.ext (by
    match a with
    | ⟨0, _⟩ => rfl
    | ⟨1, _⟩ => rfl)
  rw [e]

/-! ## The blocks the points read -/

/-- The block indices over the grid: the operand moves down one block of rows per point, the two outputs stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- Entry (n, q) of the array the region finds at its operand's buffer, as a function of every natural n (0 past the last row). -/
def rowAt (c : Dev nD) (q : Fin 128) (n : ℕ) : EReal :=
  if h : n < 50000 then V c main_v46 (ix2 (⟨n, h⟩ : Fin 50000) q) else 0

/-- Row r of the block point t loads is row 5000t + r of the operand. -/
theorem iblk_apply (c : Dev nD) (t : Fin cfg1.N) (r : Fin 5000) (q : Fin 128) :
    iblk1 V c 0 t (ix2 r q) = rowAt V c q (5000 * t.val + r.val) := by
  have hN : cfg1.N = 10 := N_1
  have ht : t.val < 10 := by have := t.isLt; omega
  have hlt : 5000 * t.val + r.val < 50000 := by have := r.isLt; omega
  unfold rowAt
  rw [dif_pos hlt]
  obtain ⟨e0, e1, -⟩ := idx_facts t
  show V c main_v46 (((cfg1.win 0).blk t).view.emb (ix2 r q)) = _
  refine congrArg (V c main_v46) (funext fun a => Fin.ext ?_)
  match a with
  | ⟨0, _⟩ => show win1_0.index t (0 : Fin 2) * 5000 + 1 * r.val = 5000 * t.val + r.val; omega
  | ⟨1, _⟩ => show win1_0.index t (1 : Fin 2) * 128 + 1 * q.val = q.val; omega

/-! ## The running sums -/

/-- Column q summed over the rows of blocks 0 … n. -/
def partSum (c : Dev nD) (q : Fin 128) (n : ℕ) : EReal :=
  ∑ s ∈ Finset.range (n + 1), ∑ r : Fin 5000, rowAt V c q (5000 * s + r.val)

/-- The squares of column q summed over the rows of blocks 0 … n. -/
def partSumSq (c : Dev nD) (q : Fin 128) (n : ℕ) : EReal :=
  ∑ s ∈ Finset.range (n + 1), ∑ r : Fin 5000, rowAt V c q (5000 * s + r.val) * rowAt V c q (5000 * s + r.val)

/-- The running sum after point 0 is block 0's sum. -/
theorem partSum_zero (c : Dev nD) (q : Fin 128) : partSum V c q 0 = ∑ r : Fin 5000, rowAt V c q (5000 * 0 + r.val) :=
  Finset.sum_range_one _

/-- The running sum of squares after point 0 is block 0's. -/
theorem partSumSq_zero (c : Dev nD) (q : Fin 128) :
    partSumSq V c q 0 = ∑ r : Fin 5000, rowAt V c q (5000 * 0 + r.val) * rowAt V c q (5000 * 0 + r.val) :=
  Finset.sum_range_one _

/-- One more point adds one more block's sum. -/
theorem partSum_succ (c : Dev nD) (q : Fin 128) (n : ℕ) :
    partSum V c q (n + 1) = partSum V c q n + ∑ r : Fin 5000, rowAt V c q (5000 * (n + 1) + r.val) :=
  Finset.sum_range_succ _ (n + 1)

/-- One more point adds one more block's sum of squares. -/
theorem partSumSq_succ (c : Dev nD) (q : Fin 128) (n : ℕ) :
    partSumSq V c q (n + 1)
      = partSumSq V c q n + ∑ r : Fin 5000, rowAt V c q (5000 * (n + 1) + r.val) * rowAt V c q (5000 * (n + 1) + r.val) :=
  Finset.sum_range_succ _ (n + 1)

/-- After point n the two outputs' buffers hold, at column q, the sums over the rows of blocks 0 … n of column q and of its
    squares: at point 0 the zero rows plus block 0's sums, at a later point what the point before left plus the block's sums —
    by induction on the point. -/
theorem outsAt_eq (c : Dev nD) : ∀ (n : ℕ) (h : n < cfg1.N) (q : Fin 128),
    (outsAt1 V c n h).1 (ix2 (0 : Fin 1) q) = partSum V c q n ∧ (outsAt1 V c n h).2 (ix2 (0 : Fin 1) q) = partSumSq V c q n
  | 0, h, q => by
    have e : outsAt1 V c 0 h = _ := outsAt1_A V c ⟨0, h⟩ rfl
    rw [e]
    dsimp only
    rw [out_A_1, out_A_2, pay4_apply, pay5_apply, pay1_apply, pay2_apply, zero_add, zero_add]
    rw [partSum_zero, partSumSq_zero]
    exact ⟨Finset.sum_congr rfl fun r _ => iblk_apply V c ⟨0, h⟩ r q,
      Finset.sum_congr rfl fun r _ => by rw [iblk_apply V c ⟨0, h⟩ r q]⟩
  | n + 1, h, q => by
    have hN : cfg1.N = 10 := N_1
    have hB : ¬(⟨n + 1, h⟩ : Fin cfg1.N).val % 10 = 0 := by dsimp only; omega
    have e : outsAt1 V c (n + 1) h = _ := outsAt1_B V c ⟨n + 1, h⟩ hB
    rw [e]
    dsimp only
    rw [out_B_1, out_B_2, pay4_apply, pay5_apply]
    obtain ⟨ih1, ih2⟩ := outsAt_eq c n (Nat.lt_of_succ_lt h) q
    rw [partSum_succ, partSumSq_succ, ← ih1, ← ih2]
    exact ⟨congrArg _ (Finset.sum_congr rfl fun r _ => iblk_apply V c ⟨n + 1, h⟩ r q),
      congrArg _ (Finset.sum_congr rfl fun r _ => by rw [iblk_apply V c ⟨n + 1, h⟩ r q])⟩

/-! ## What the region leaves in the two result arrays -/

/-- The column sums of the operand, as the one-row array the first output ends holding. -/
abbrev sums (c : Dev nD) : S1x128.Idx → EReal := fun i => colSum (V c main_v46) (i 1)

/-- The column sums of squares of the operand, as the one-row array the second output ends holding. -/
abbrev sumsSq (c : Dev nD) : S1x128.Idx → EReal := fun i => colSumSq (V c main_v46) (i 1)

/-- Ten blocks of 5000 rows are the 50000 rows: the running sum after the last point is the whole column sum. -/
theorem partSum_last (c : Dev nD) (q : Fin 128) : partSum V c q 9 = colSum (V c main_v46) q := by
  unfold partSum colSum
  show ∑ s ∈ Finset.range 10, ∑ r : Fin 5000, rowAt V c q (5000 * s + r.val) = _
  refine (Cert.LibBatchMoments.sum_rows_blocked (rowAt V c q)).symm.trans ?_
  exact Finset.sum_congr rfl fun p _ => by unfold rowAt; rw [dif_pos p.isLt]

/-- Likewise for the squares. -/
theorem partSumSq_last (c : Dev nD) (q : Fin 128) : partSumSq V c q 9 = colSumSq (V c main_v46) q := by
  unfold partSumSq colSumSq
  show ∑ s ∈ Finset.range 10, ∑ r : Fin 5000, rowAt V c q (5000 * s + r.val) * rowAt V c q (5000 * s + r.val) = _
  refine (Cert.LibBatchMoments.sum_rows_blocked (fun n => rowAt V c q n * rowAt V c q n)).symm.trans ?_
  exact Finset.sum_congr rfl fun p _ => by unfold rowAt; rw [dif_pos p.isLt]

/-- The grid has ten points: 9 is the last. -/
theorem lt9 : 9 < cfg1.N := by rw [show cfg1.N = 10 from N_1]; decide

/-- After the last point the first output's buffer holds the column sums. -/
theorem outs_last_1 (c : Dev nD) : (outsAt1 V c 9 lt9).1 = sums V c := by
  funext j
  obtain ⟨u, q, rfl⟩ : ∃ (u : Fin 1) (q : Fin 128), j = ix2 u q := ⟨j 0, j 1, eq_ix2 j⟩
  obtain rfl : u = 0 := Subsingleton.elim _ _
  rw [(outsAt_eq V c 9 lt9 q).1, partSum_last]

/-- After the last point the second output's buffer holds the column sums of squares. -/
theorem outs_last_2 (c : Dev nD) : (outsAt1 V c 9 lt9).2 = sumsSq V c := by
  funext j
  obtain ⟨u, q, rfl⟩ : ∃ (u : Fin 1) (q : Fin 128), j = ix2 u q := ⟨j 0, j 1, eq_ix2 j⟩
  obtain rfl : u = 0 := Subsingleton.elim _ _
  rw [(outsAt_eq V c 9 lt9 q).2, partSumSq_last]

/-- The one write-back of the first output, after the last point, writes the column sums: its block is the whole one-row array. -/
theorem flushed_eq_1 (c : Dev nD) (t : Fin cfg1.N) (hf : (cfg1.win 1).flush t = true) :
    (dat1 V c).flushed 1 t = ((cfg1.win 1).blk t).view.read (Elt Ideal) (sums V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1]
  have e : (outsAt1 V c t1_9.val t1_9.isLt).1 = sums V c := outs_last_1 V c
  rw [e]
  have hz' : (fun a => win1_1.index t1_9 a * main_v47_0.ty.shape.size a) = fun _ => 0 :=
    funext fun a => by fin_cases a <;> decide +kernel
  exact (Memref.read_access_unit_zero (Elt Ideal) main_v47_0 hz' (fun a => by rw [congrFun hz' a]; simp) (sums V c)).symm

/-- The one write-back of the second output writes the column sums of squares. -/
theorem flushed_eq_2 (c : Dev nD) (t : Fin cfg1.N) (hf : (cfg1.win 2).flush t = true) :
    (dat1 V c).flushed 2 t = ((cfg1.win 2).blk t).view.read (Elt Ideal) (sumsSq V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  have e : (outsAt1 V c t1_9.val t1_9.isLt).2 = sumsSq V c := outs_last_2 V c
  rw [e]
  have hz' : (fun a => win1_2.index t1_9 a * main_v47_1.ty.shape.size a) = fun _ => 0 :=
    funext fun a => by fin_cases a <;> decide +kernel
  exact (Memref.read_access_unit_zero (Elt Ideal) main_v47_1 hz' (fun a => by rw [congrFun hz' a]; simp) (sumsSq V c)).symm

/-- Every index of the one-row array is in the block the last point writes back (the block is the whole array). -/
theorem cover_1 (i : S1x128.Idx) : ∃ t : Fin cfg1.N, (cfg1.win 1).flush t = true ∧ i ∈ ((cfg1.win 1).blk t).view.set := by
  have hi0 : (i 0).val < 1 := (i 0).isLt
  have hi1 : (i 1).val < 128 := (i 1).isLt
  refine ⟨t1_9, (flush1_1 t1_9).mpr rfl, ?_⟩
  show i ∈ ((View.whole main_v47_0).slice (win1_1.rect t1_9)).set
  rw [View.set_slice_whole, Rect.mem_set_unit]
  obtain ⟨-, -, e2, e3, -, -⟩ := idx_facts t1_9
  intro a
  match a with
  | ⟨0, _⟩ => show win1_1.index t1_9 (0 : Fin 2) * 1 ≤ (i 0).val ∧ (i 0).val < win1_1.index t1_9 (0 : Fin 2) * 1 + 1; rw [e2]; omega
  | ⟨1, _⟩ => show win1_1.index t1_9 (1 : Fin 2) * 128 ≤ (i 1).val ∧ (i 1).val < win1_1.index t1_9 (1 : Fin 2) * 128 + 128; rw [e3]; omega

/-- Likewise for the second output. -/
theorem cover_2 (i : S1x128.Idx) : ∃ t : Fin cfg1.N, (cfg1.win 2).flush t = true ∧ i ∈ ((cfg1.win 2).blk t).view.set := by
  have hi0 : (i 0).val < 1 := (i 0).isLt
  have hi1 : (i 1).val < 128 := (i 1).isLt
  refine ⟨t1_9, (flush1_2 t1_9).mpr rfl, ?_⟩
  show i ∈ ((View.whole main_v47_1).slice (win1_2.rect t1_9)).set
  rw [View.set_slice_whole, Rect.mem_set_unit]
  obtain ⟨-, -, -, -, e4, e5⟩ := idx_facts t1_9
  intro a
  match a with
  | ⟨0, _⟩ => show win1_2.index t1_9 (0 : Fin 2) * 1 ≤ (i 0).val ∧ (i 0).val < win1_2.index t1_9 (0 : Fin 2) * 1 + 1; rw [e4]; omega
  | ⟨1, _⟩ => show win1_2.index t1_9 (1 : Fin 2) * 128 ≤ (i 1).val ∧ (i 1).val < win1_2.index t1_9 (1 : Fin 2) * 128 + 128; rw [e5]; omega

/-- After the region the first result array holds the column sums of the operand. -/
theorem final_sum (c : Dev nD) : (dat1 V c).arrAt 1 cfg1.N = fun i : S1x128.Idx => colSum (V c main_v46) (i 1) :=
  (dat1 V c).arrAt_eq_of_cover 1 (sums V c) (flushed_eq_1 V c) (cover_1)

/-- After the region the second result array holds the column sums of squares of the operand. -/
theorem final_sumsq (c : Dev nD) : (dat1 V c).arrAt 2 cfg1.N = fun i : S1x128.Idx => colSumSq (V c main_v46) (i 1) :=
  (dat1 V c).arrAt_eq_of_cover 2 (sumsSq V c) (flushed_eq_2 V c) (cover_2)

end Cert.KernelIdeal.Region1

end
-- ==== Proof.KRegion2.lean ====
/-
  Region 2 of the idealized kernel: normalise, scale, shift and clamp, block of rows by block of rows.

  Grid point t loads rows 5000t … 5000t+4999 of `out` and the four one-row arrays (mean, variance, γ, β), and stores
  max(((out[p,q] − mean[q])·rsqrt(var[q] + ε))·γ[q] + β[q], 0) for the block's rows: each entry depends on its own entry of
  `out` and on the q-th entries of the rows, so every block is the restriction of one whole-array function, `bnRelu`.
  The ten blocks tile the result.
-/
import proofs.«161189_j53137335386622_1_alg».proof.Proof.Gen.KernelIdeal.Frame
import proofs.«161189_j53137335386622_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Bridge
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The one row of a [1,128] array, as a function of the column. -/
abbrev row (v : S1x128.Idx → EReal) : Fin 128 → EReal := fun q => v (ix2 (0 : Fin 1) q)

/-- The body's one store at row r, column q of the block. -/
theorem pay_apply (x0 : Vec Ideal S5000x128 .f32) (x1 x2 x3 x4 : Vec Ideal S1x128 .f32) (r : Fin 5000) (q : Fin 128) :
    k2_pay1 x0 x1 x2 x3 x4 (ix2 r q)
      = max (((x0 (ix2 r q) - x1 (ix2 (0 : Fin 1) q)) * Ideal.rsqrt (x2 (ix2 (0 : Fin 1) q) + epsBN)) * x3 (ix2 (0 : Fin 1) q)
          + x4 (ix2 (0 : Fin 1) q)) (Ideal.ofBits .f32 0x00000000#32) := by
  unfold k2_pay1
  simp only [shapeCast_self]
  rw [maximumf_apply, addf_apply, mulf_apply, mulf_apply, subf_apply,
    broadcastTo_1b_ab_apply x1 broadcasts_S1x128_S5000x128 r q, broadcastTo_1b_ab_apply x3 broadcasts_S1x128_S5000x128 r q,
    broadcastTo_1b_ab_apply x4 broadcasts_S1x128_S5000x128 r q, broadcastTo_1b_ab_apply _ broadcasts_S1x128_S5000x128 r q]
  rfl

/-- The block indices over the grid: `out` and the result move down one block of rows per point, the rows stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The whole result, of the arrays the region finds at its five operands' buffers. -/
abbrev whole (c : Dev nD) : S50000x128.Idx → EReal :=
  bnRelu (V c main_v46) (row (V c main_v56)) (row (V c main_v57)) (row (V c main_v58)) (row (V c main_v59))

/-- What point t writes back is block t of the whole result. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  obtain ⟨e0, e1, e2, e3, e4, e5, e6, e7, e8, e9, e10, e11⟩ := idx_facts t
  funext j
  obtain ⟨r, q, rfl⟩ : ∃ (r : Fin 5000) (q : Fin 128), j = ix2 r q := ⟨j 0, j 1, eq_ix2 j⟩
  show k2_pay1 (iblk2 V c 0 t) (iblk2 V c 1 t) (iblk2 V c 2 t) (iblk2 V c 3 t) (iblk2 V c 4 t) (ix2 r q)
    = whole V c (((cfg2.win 5).blk t).view.emb (ix2 r q))
  rw [pay_apply]
  have hq : ((((cfg2.win 5).blk t).view.emb (ix2 r q)) 1 : Fin 128) = q := Fin.ext (by
    show win2_5.index t (1 : Fin 2) * 128 + 1 * q.val = q.val; omega)
  have h0 : iblk2 V c 0 t (ix2 r q) = V c main_v46 (((cfg2.win 5).blk t).view.emb (ix2 r q)) := by
    show V c main_v46 (((cfg2.win 0).blk t).view.emb (ix2 r q)) = _
    refine congrArg (V c main_v46) (funext fun a => Fin.ext ?_)
    match a with
    | ⟨0, _⟩ => show win2_0.index t (0 : Fin 2) * 5000 + 1 * r.val = win2_5.index t (0 : Fin 2) * 5000 + 1 * r.val; omega
    | ⟨1, _⟩ => show win2_0.index t (1 : Fin 2) * 128 + 1 * q.val = win2_5.index t (1 : Fin 2) * 128 + 1 * q.val; omega
  have h1 : iblk2 V c 1 t (ix2 (0 : Fin 1) q) = V c main_v56 (ix2 (0 : Fin 1) q) := by
    show V c main_v56 (((cfg2.win 1).blk t).view.emb (ix2 (0 : Fin 1) q)) = _
    refine congrArg (V c main_v56) (funext fun a => Fin.ext ?_)
    match a with
    | ⟨0, _⟩ => show win2_1.index t (0 : Fin 2) * 1 + 1 * 0 = 0; omega
    | ⟨1, _⟩ => show win2_1.index t (1 : Fin 2) * 128 + 1 * q.val = q.val; omega
  have h2 : iblk2 V c 2 t (ix2 (0 : Fin 1) q) = V c main_v57 (ix2 (0 : Fin 1) q) := by
    show V c main_v57 (((cfg2.win 2).blk t).view.emb (ix2 (0 : Fin 1) q)) = _
    refine congrArg (V c main_v57) (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  have h3 : iblk2 V c 3 t (ix2 (0 : Fin 1) q) = V c main_v58 (ix2 (0 : Fin 1) q) := by
    show V c main_v58 (((cfg2.win 3).blk t).view.emb (ix2 (0 : Fin 1) q)) = _
    refine congrArg (V c main_v58) (funext fun a => Fin.ext ?_)
    match a with
    | ⟨0, _⟩ => show win2_3.index t (0 : Fin 2) * 1 + 1 * 0 = 0; omega
    | ⟨1, _⟩ => show win2_3.index t (1 : Fin 2) * 128 + 1 * q.val = q.val; omega
  have h4 : iblk2 V c 4 t (ix2 (0 : Fin 1) q) = V c main_v59 (ix2 (0 : Fin 1) q) := by
    show V c main_v59 (((cfg2.win 4).blk t).view.emb (ix2 (0 : Fin 1) q)) = _
    refine congrArg (V c main_v59) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  rw [h0, h1, h2, h3, h4]
  show _ = bnRelu (V c main_v46) (row (V c main_v56)) (row (V c main_v57)) (row (V c main_v58)) (row (V c main_v59))
    (((cfg2.win 5).blk t).view.emb (ix2 r q))
  unfold bnRelu
  dsimp only
  rw [hq]

/-- An index of the result is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v60).slice (win2_5.rect t)).set ↔ _
  rw [View.set_slice_whole, Rect.mem_set_unit]
  exact Iff.rfl

/-- Row p lies in the block of point p / 5000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_blk]
  obtain ⟨-, -, -, -, -, -, -, -, -, -, e10, e11⟩ := idx_facts ⟨(i 0).val / 5000, by rw [hN]; omega⟩
  intro a
  match a with
  | ⟨0, _⟩ => show win2_5.index _ (0 : Fin 2) * 5000 ≤ (i 0).val ∧ (i 0).val < win2_5.index _ (0 : Fin 2) * 5000 + 5000; rw [e10]; dsimp only; omega
  | ⟨1, _⟩ => show win2_5.index _ (1 : Fin 2) * 128 ≤ (i 1).val ∧ (i 1).val < win2_5.index _ (1 : Fin 2) * 128 + 128; rw [e11]; omega

/-- After the region the result array holds `bnRelu` of the five arrays the region found. -/
theorem final (c : Dev nD) : (dat2 V c).arrAt 5 cfg2.N = whole V c :=
  (dat2 V c).arrAt_eq_of_cover 5 (whole V c) (fun t _ => flushed_eq V c t) (cover)

end Cert.KernelIdeal.Region2

end
-- ==== Proof.Aggregate.lean ====
/-
  The graph aggregation both programs share, as one function of the transformed features.

  Both programs compute h = x·W first (the kernel block by block on the matrix unit, the reference by one contraction) and then
  run the SAME host operations on it: with src/dst the two rows of the edge list followed by the self loops 0 … N-1,
  deg = Σ over edges into a node of 1, dinv = 1/√deg where deg > 0 and 0 elsewhere, norm = dinv[src]·dinv[dst], and
  out = Σ over edges into a node of h[src]·norm, plus the bias on every row. `aggregate h e b` is that chain, spelt exactly as the
  printed operations compose, with h, the edge list e and the bias b as its only inputs. Neither certificate side ever needs more
  of it than: it is one function of (h, e, b), and its entries are real numbers when those of h and b are.
-/
import proofs.«161189_j53137335386622_1_alg».proof.ReferenceIdeal
import Idealize.ShloMosaic.PureOps.Ideal

set_option maxRecDepth 16384

noncomputable section

namespace Cert.Bridge

open Idealize.ShloMosaic Cert.ReferenceIdeal

variable [Cert.ReferenceIdeal.Facts]
open Cert.ReferenceIdeal.Facts₀ Cert.ReferenceIdeal.Facts

/-- Degree-normalised neighbourhood sums of the rows of `h` along the edge list `e` (self loops appended), plus the bias `b`:
    the host operations %1 … %46 of either program, composed. -/
def aggregate (h : (⟨S50000x128, .f32⟩ : BufTy).Contents (Elt Ideal)) (e : (⟨S2x1600000, .i32⟩ : BufTy).Contents (Elt Ideal))
    (b : (⟨S128, .f32⟩ : BufTy).Contents (Elt Ideal)) : (⟨S50000x128, .f32⟩ : BufTy).Contents (Elt Ideal) :=
  (addf (Host.scatterAdd (F := Ideal) scatter_S50000x128_S1650000x1_S1650000x128_1_0_0_1 (broadcastInDim S50000x128 ![] bcast_S_S50000x128 (constant (F := Ideal) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (mulf (Host.gather gather_S50000x128_S1650000x1_S1650000x128_1_0_n_n_0_1_1128 h (broadcastInDim S1650000x1 ![0] bcast_S1650000_S1650000x1_0 (select (cmpi .slt (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0)))) (broadcastInDim S1650000x128 ![0, 1] bcast_S1650000x1_S1650000x128_0_1 (broadcastInDim S1650000x1 ![0] bcast_S1650000_S1650000x1_0 (mulf (Host.gather gather_S50000_S1650000x1_S1650000_n_0_n_n_0_1_1 (select (cmpf (F := Ideal) .ogt (Host.scatterAdd (F := Ideal) scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := Ideal) S_ .f32 0x3F800000#32))) (broadcastInDim S50000 ![] bcast_S_S50000 (constant (F := Ideal) S_ .f32 0x00000000#32))) (Host.rsqrt (F := Ideal) (Host.scatterAdd (F := Ideal) scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := Ideal) S_ .f32 0x3F800000#32)))) (broadcastInDim S50000 ![] bcast_S_S50000 (id (constant (F := Ideal) S_ .f32 0x00000000#32)))) (broadcastInDim S1650000x1 ![0] bcast_S1650000_S1650000x1_0 (select (cmpi .slt (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0)))) (Host.gather gather_S50000_S1650000x1_S1650000_n_0_n_n_0_1_1 (select (cmpf (F := Ideal) .ogt (Host.scatterAdd (F := Ideal) scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := Ideal) S_ .f32 0x3F800000#32))) (broadcastInDim S50000 ![] bcast_S_S50000 (constant (F := Ideal) S_ .f32 0x00000000#32))) (Host.rsqrt (F := Ideal) (Host.scatterAdd (F := Ideal) scatter_S50000_S1650000x1_S1650000_n_0_0_1 (broadcastInDim S50000 ![] bcast_S_S50000 (constant (F := Ideal) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := Ideal) S_ .f32 0x3F800000#32)))) (broadcastInDim S50000 ![] bcast_S_S50000 (id (constant (F := Ideal) S_ .f32 0x00000000#32)))) (broadcastInDim S1650000x1 ![0] bcast_S1650000_S1650000x1_0 (select (cmpi .slt (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0))))))))) (broadcastInDim S50000x128 ![0, 1] bcast_S1x128_S50000x128_0_1 (broadcastInDim S1x128 ![1] bcast_S128_S1x128_1 b)))

end Cert.Bridge

end
-- ==== Proof.KFold.lean ====
/-
  The first stretch of host operations of the idealized kernel, read at the buffer region 1 consumes.

  Between region 0 (the product h = x·W) and region 1 (the column statistics) the program runs on the host the operations the
  reference also runs: the degree-normalised neighbourhood sums of the rows of h along the edge list, plus the bias. Composed
  from any buffer contents W they leave, at the buffer of %46, one function of W's %0, W's edge list and W's bias — the same
  function `aggregate` the reference's stages compose to, spelt here with this program's own records first (so that the fold
  of the operations' results closes against it at any float instance) and then identified with the shared one.
-/
import proofs.«161189_j53137335386622_1_alg».proof.Proof.Gen.KernelIdeal.Frame
import proofs.«161189_j53137335386622_1_alg».proof.Proof.Aggregate
import proofs.«161189_j53137335386622_1_alg».proof.Proof.Gen.ReferenceIdeal
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable {F : FTy → Type} [FloatOps F]

/-- The aggregation chain (host operations %1 … %46 composed) spelt with this program's own records, at any float instance. -/
def aggregateK (h : (⟨S50000x128, .f32⟩ : BufTy).Contents (Elt F)) (e : (⟨S2x1600000, .i32⟩ : BufTy).Contents (Elt F))
    (b : (⟨S128, .f32⟩ : BufTy).Contents (Elt F)) : (⟨S50000x128, .f32⟩ : BufTy).Contents (Elt F) :=
  (addf (Host.scatterAdd (F := F) scatter_S50000x128_S1650000x1_S1650000x128_1_0_0_1 (broadcastInDim S50000x128 ![] bcast_S_S50000x128 (constant (F := F) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (mulf (Host.gather gather_S50000x128_S1650000x1_S1650000x128_1_0_n_n_0_1_1128 h (broadcastInDim S1650000x1 ![0] bcast_S1650000_S1650000x1_0 (select (cmpi .slt (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0)))) (broadcastInDim S1650000x128 ![0, 1] bcast_S1650000x1_S1650000x128_0_1 (broadcastInDim S1650000x1 ![0] bcast_S1650000_S1650000x1_0 (mulf (Host.gather gather_S50000_S1650000x1_S1650000_n_0_n_n_0_1_1 (select (cmpf (F := F) .ogt (Host.scatterAdd (F := F) scatter_S50000_S1650000x1_S1650000_n_0_0_1 (broadcastInDim S50000 ![] bcast_S_S50000 (constant (F := F) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := F) S_ .f32 0x3F800000#32))) (broadcastInDim S50000 ![] bcast_S_S50000 (constant (F := F) S_ .f32 0x00000000#32))) (Host.rsqrt (F := F) (Host.scatterAdd (F := F) scatter_S50000_S1650000x1_S1650000_n_0_0_1 (broadcastInDim S50000 ![] bcast_S_S50000 (constant (F := F) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := F) S_ .f32 0x3F800000#32)))) (broadcastInDim S50000 ![] bcast_S_S50000 (id (constant (F := F) S_ .f32 0x00000000#32)))) (broadcastInDim S1650000x1 ![0] bcast_S1650000_S1650000x1_0 (select (cmpi .slt (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0)))) (Host.gather gather_S50000_S1650000x1_S1650000_n_0_n_n_0_1_1 (select (cmpf (F := F) .ogt (Host.scatterAdd (F := F) scatter_S50000_S1650000x1_S1650000_n_0_0_1 (broadcastInDim S50000 ![] bcast_S_S50000 (constant (F := F) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := F) S_ .f32 0x3F800000#32))) (broadcastInDim S50000 ![] bcast_S_S50000 (constant (F := F) S_ .f32 0x00000000#32))) (Host.rsqrt (F := F) (Host.scatterAdd (F := F) scatter_S50000_S1650000x1_S1650000_n_0_0_1 (broadcastInDim S50000 ![] bcast_S_S50000 (constant (F := F) S_ .f32 0x00000000#32)) (broadcastInDim S1650000x1 ![0] bcast_S1650000_S1650000x1_0 (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)) (broadcastInDim S1650000 ![] bcast_S_S1650000 (constant (F := F) S_ .f32 0x3F800000#32)))) (broadcastInDim S50000 ![] bcast_S_S50000 (id (constant (F := F) S_ .f32 0x00000000#32)))) (broadcastInDim S1650000x1 ![0] bcast_S1650000_S1650000x1_0 (select (cmpi .slt (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 0#32))) (addi (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0) (broadcastInDim S1650000 ![] bcast_S_S1650000 (constantI S_ 32 50000#32))) (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0))))))))) (broadcastInDim S50000x128 ![0, 1] bcast_S1x128_S50000x128_0_1 (broadcastInDim S1x128 ![1] bcast_S128_S1x128_1 b)))

/-- From any contents W the three lists of host operations between regions 0 and 1 leave, at the buffer of %46, the chain of
    W's %0, W's edge list and W's bias. -/
theorem stretch1_outK (W : Valuation τ sig (Elt F)) :
    StableHlo.after hostOps1_2 (StableHlo.after hostOps1_1 (StableHlo.after hostOps1 W)) (Proc.devRef .tc main_v46)
      = aggregateK (W (Proc.devRef .tc main_v0)) (W (Proc.devRef .tc main_arg1)) (W (Proc.devRef .tc main_arg3)) := by
  simp only [hostOps1, hostOps1_1, hostOps1_2]
  after_results_simp <;> rfl <;> (unfold aggregateK; rfl)

/-- On the extended reals this program's spelling of the chain and the shared one are one function: the two programs' records
    of dimension numbers have the same fields. -/
theorem aggregateK_eq (h : (⟨S50000x128, .f32⟩ : BufTy).Contents (Elt Ideal)) (e : (⟨S2x1600000, .i32⟩ : BufTy).Contents (Elt Ideal))
    (b : (⟨S128, .f32⟩ : BufTy).Contents (Elt Ideal)) : aggregateK (F := Ideal) h e b = Cert.Bridge.aggregate h e b := rfl

/-- The first stretch at the extended reals, against the shared chain. -/
theorem stretch1_out (W : Valuation τ sig (Elt Ideal)) :
    StableHlo.after hostOps1_2 (StableHlo.after hostOps1_1 (StableHlo.after hostOps1 W)) (Proc.devRef .tc main_v46)
      = Cert.Bridge.aggregate (W (Proc.devRef .tc main_v0)) (W (Proc.devRef .tc main_arg1)) (W (Proc.devRef .tc main_arg3)) :=
  (stretch1_outK W).trans (aggregateK_eq _ _ _)

end Cert.KernelIdeal.Fold

end
-- ==== Proof.KStretch2.lean ====
/-
  The host operations between the regions, read at the buffers the last region consumes.

  Between the statistics region and the normalisation region the program reshapes the two one-row results S and Q to vectors,
  divides each entrywise by the row count N (the constant 50000.0, broadcast), forms Q/N − (S/N)², and reshapes the mean S/N, that
  variance, and the scale and shift arguments γ, β to one-row arrays. None of these operations writes the aggregated features,
  and no operation before the statistics region writes γ or β. Read entry by entry on the extended reals:
  mean[q] = S[q]/N, var[q] = Q[q]/N − (S[q]/N)·(S[q]/N), and the γ, β rows are the arguments' entries.
  The operations are first read as whole arrays at any float values, then entry by entry at the extended reals.
-/
import proofs.«161189_j53137335386622_1_alg».proof.Proof.Gen.KernelIdeal.Frame
import proofs.«161189_j53137335386622_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx Cert.Bridge

/-! ## The stretch read as whole arrays, at any float values -/

section Generic
variable {F : FTy → Type} [FloatOps F] (W : Valuation τ sig (Elt F))

/-- No operation between regions 1 and 2 writes the aggregated features. -/
theorem after2_v46 : StableHlo.after hostOps2 W (Proc.devRef .tc main_v46) = W (Proc.devRef .tc main_v46) := by
  simp only [hostOps2]; after_results_simp <;> rfl

/-- The mean row: the first result reshaped to a vector, divided entrywise by the row count, reshaped back to one row. -/
theorem after2_v56 : StableHlo.after hostOps2 W (Proc.devRef .tc main_v56)
    = shapeCast S1x128 (Host.divf (shapeCast S128 (W (Proc.devRef .tc main_v47_0)) shapeCasts_S1x128_S128)
        (broadcastInDim S128 ![] bcast_S_S128 (constant S_ .f32 0x47435000#32))) shapeCasts_S128_S1x128 := by
  simp only [hostOps2]; after_results_simp <;> rfl

/-- The variance row: the second result over the row count, minus the square of the mean. -/
theorem after2_v57 : StableHlo.after hostOps2 W (Proc.devRef .tc main_v57)
    = shapeCast S1x128 (subf
        (Host.divf (shapeCast S128 (W (Proc.devRef .tc main_v47_1)) shapeCasts_S1x128_S128)
          (broadcastInDim S128 ![] bcast_S_S128 (constant S_ .f32 0x47435000#32)))
        (mulf
          (Host.divf (shapeCast S128 (W (Proc.devRef .tc main_v47_0)) shapeCasts_S1x128_S128)
            (broadcastInDim S128 ![] bcast_S_S128 (constant S_ .f32 0x47435000#32)))
          (Host.divf (shapeCast S128 (W (Proc.devRef .tc main_v47_0)) shapeCasts_S1x128_S128)
            (broadcastInDim S128 ![] bcast_S_S128 (constant S_ .f32 0x47435000#32))))) shapeCasts_S128_S1x128 := by
  simp only [hostOps2]; after_results_simp <;> rfl

/-- The scale row is the scale argument reshaped to one row. -/
theorem after2_v58 : StableHlo.after hostOps2 W (Proc.devRef .tc main_v58)
    = shapeCast S1x128 (W (Proc.devRef .tc main_arg4)) shapeCasts_S128_S1x128 := by
  simp only [hostOps2]; after_results_simp <;> rfl

/-- The shift row is the shift argument reshaped to one row. -/
theorem after2_v59 : StableHlo.after hostOps2 W (Proc.devRef .tc main_v59)
    = shapeCast S1x128 (W (Proc.devRef .tc main_arg5)) shapeCasts_S128_S1x128 := by
  simp only [hostOps2]; after_results_simp <;> rfl

/-- No operation between regions 0 and 1 writes the scale argument. -/
theorem stretch1_keeps4 : StableHlo.after hostOps1_2 (StableHlo.after hostOps1_1 (StableHlo.after hostOps1 W)) (Proc.devRef .tc main_arg4)
    = W (Proc.devRef .tc main_arg4) :=
  calc StableHlo.after hostOps1_2 (StableHlo.after hostOps1_1 (StableHlo.after hostOps1 W)) (Proc.devRef .tc main_arg4)
    _ = StableHlo.after hostOps1_1 (StableHlo.after hostOps1 W) (Proc.devRef .tc main_arg4) := StableHlo.after_of_forall_not_mem (b := Proc.devRef .tc main_arg4) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = StableHlo.after hostOps1 W (Proc.devRef .tc main_arg4) := StableHlo.after_of_forall_not_mem (b := Proc.devRef .tc main_arg4) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation between regions 0 and 1 writes the shift argument. -/
theorem stretch1_keeps5 : StableHlo.after hostOps1_2 (StableHlo.after hostOps1_1 (StableHlo.after hostOps1 W)) (Proc.devRef .tc main_arg5)
    = W (Proc.devRef .tc main_arg5) :=
  calc StableHlo.after hostOps1_2 (StableHlo.after hostOps1_1 (StableHlo.after hostOps1 W)) (Proc.devRef .tc main_arg5)
    _ = StableHlo.after hostOps1_1 (StableHlo.after hostOps1 W) (Proc.devRef .tc main_arg5) := StableHlo.after_of_forall_not_mem (b := Proc.devRef .tc main_arg5) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = StableHlo.after hostOps1 W (Proc.devRef .tc main_arg5) := StableHlo.after_of_forall_not_mem (b := Proc.devRef .tc main_arg5) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W (Proc.devRef .tc main_arg5) := StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Generic

/-! ## The same at the extended reals, entry by entry -/

section AtIdeal
variable (W : Valuation τ sig (Elt Ideal)) (q : Fin 128)

/-- The aggregated features pass through the stretch unchanged. -/
theorem stretch2_out : StableHlo.after hostOps2 W (Proc.devRef .tc main_v46) = W (Proc.devRef .tc main_v46) :=
  after2_v46 W

/-- The scalar 50000.0 broadcast to a vector is the row count at every entry. -/
theorem bcast_nRows : broadcastInDim S128 ![] bcast_S_S128 (constant (F := Ideal) S_ .f32 0x47435000#32) (ix1 q) = nRows :=
  (broadcastInDim_apply _ bcast_S_S128 _ (ix1 q) ix0 (fun a => a.elim0)).trans rfl

/-- Entry q of the mean row: entry q of the first result over the row count. -/
theorem stretch2_mean : StableHlo.after hostOps2 W (Proc.devRef .tc main_v56) (ix2 (0 : Fin 1) q)
    = Ideal.div (W (Proc.devRef .tc main_v47_0) (ix2 (0 : Fin 1) q)) nRows := by
  refine (congrFun (after2_v56 W) (ix2 (0 : Fin 1) q)).trans ?_
  rw [shapeCast_a_1a_apply]
  simp only [Host.divf, Ideal.hostDivf_def, shapeCast_1a_a_apply]
  rw [bcast_nRows]

/-- Entry q of the variance row: the second result over the row count, minus the square of the mean. -/
theorem stretch2_var : StableHlo.after hostOps2 W (Proc.devRef .tc main_v57) (ix2 (0 : Fin 1) q)
    = Ideal.div (W (Proc.devRef .tc main_v47_1) (ix2 (0 : Fin 1) q)) nRows
      - Ideal.div (W (Proc.devRef .tc main_v47_0) (ix2 (0 : Fin 1) q)) nRows
        * Ideal.div (W (Proc.devRef .tc main_v47_0) (ix2 (0 : Fin 1) q)) nRows := by
  refine (congrFun (after2_v57 W) (ix2 (0 : Fin 1) q)).trans ?_
  rw [shapeCast_a_1a_apply]
  simp only [subf_apply, mulf_apply, Host.divf, Ideal.hostDivf_def, shapeCast_1a_a_apply]
  rw [bcast_nRows]

/-- Entry q of the scale row is entry q of the scale argument. -/
theorem stretch2_gamma : StableHlo.after hostOps2 W (Proc.devRef .tc main_v58) (ix2 (0 : Fin 1) q)
    = W (Proc.devRef .tc main_arg4) (ix1 q) := by
  refine (congrFun (after2_v58 W) (ix2 (0 : Fin 1) q)).trans ?_
  rw [shapeCast_a_1a_apply]

/-- Entry q of the shift row is entry q of the shift argument. -/
theorem stretch2_beta : StableHlo.after hostOps2 W (Proc.devRef .tc main_v59) (ix2 (0 : Fin 1) q)
    = W (Proc.devRef .tc main_arg5) (ix1 q) := by
  refine (congrFun (after2_v59 W) (ix2 (0 : Fin 1) q)).trans ?_
  rw [shapeCast_a_1a_apply]
end AtIdeal

end Cert.KernelIdeal.Fold

end
-- ==== Proof.KValue.lean ====
/-
  The idealized kernel's result as one function of its arguments.

  Read boundary by boundary, the run's buffers are: after region 0 the product h = x·W; after the first stretch of host
  operations out = aggregate h e b; after region 1 the column sums S and the column sums of squares Q of `out`; after the
  second stretch the one-row arrays mean = S/N, var = Q/N − mean², γ and β; after region 2 the result
  `bnRelu out mean var γ β`. Each step is the corresponding region's or stretch's lemma at the previous boundary's contents.
-/
import proofs.«161189_j53137335386622_1_alg».proof.Proof.KRegion0
import proofs.«161189_j53137335386622_1_alg».proof.Proof.KRegion1
import proofs.«161189_j53137335386622_1_alg».proof.Proof.KRegion2
import proofs.«161189_j53137335386622_1_alg».proof.Proof.KFold
import proofs.«161189_j53137335386622_1_alg».proof.Proof.KStretch2

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx Cert.Bridge Cert.Lib.PlainDot Cert.KernelIdeal.Fold

variable (m : (ℓ : Loc nD τ sig) → Buf (Elt Ideal) ℓ) (ρ : Dev nD → PrngReg)

/-- `out` as a function of the launch memory: the aggregation of x·W along the edge list, plus the bias. -/
abbrev Out (c : Dev nD) : S50000x128.Idx → EReal :=
  aggregate (rowsByCols (m ((c : Thread nD τ).loc main_arg0)) (m ((c : Thread nD τ).loc main_arg2)))
    (m ((c : Thread nD τ).loc main_arg1)) (m ((c : Thread nD τ).loc main_arg3))

/-- After region 0 the buffer of %0 holds x·W. -/
theorem h_eq (c : Dev nD) : W1 m ρ c (Proc.devRef .tc main_v0)
    = rowsByCols (m ((c : Thread nD τ).loc main_arg0)) (m ((c : Thread nD τ).loc main_arg2)) :=
  (W1_arr m ρ c 2).trans (Region0.final (V0 m ρ) c)

/-- At region 1's entry the buffer of %46 holds `out`. -/
theorem out_eq (c : Dev nD) : W4 m ρ c (Proc.devRef .tc main_v46) = Out m c := by
  show StableHlo.after hostOps1_2 (StableHlo.after hostOps1_1 (StableHlo.after hostOps1 (W1 m ρ c))) (Proc.devRef .tc main_v46) = _
  rw [stretch1_out, h_eq, W1_of_ne m ρ c main_arg1 (by decide), W1_of_ne m ρ c main_arg3 (by decide)]

/-- After region 1 the buffer of %47#0 holds the column sums of `out` … -/
theorem sum_eq (c : Dev nD) : W5 m ρ c (Proc.devRef .tc main_v47_0) = fun i : S1x128.Idx => colSum (Out m c) (i 1) := by
  refine (W5_arr m ρ c 1).trans ((Region1.final_sum (V4 m ρ) c).trans ?_)
  show (fun i : S1x128.Idx => colSum (W4 m ρ c (Proc.devRef .tc main_v46)) (i 1)) = _
  rw [out_eq]

/-- … and the buffer of %47#1 the column sums of squares. -/
theorem sumsq_eq (c : Dev nD) : W5 m ρ c (Proc.devRef .tc main_v47_1) = fun i : S1x128.Idx => colSumSq (Out m c) (i 1) := by
  refine (W5_arr m ρ c 2).trans ((Region1.final_sumsq (V4 m ρ) c).trans ?_)
  show (fun i : S1x128.Idx => colSumSq (W4 m ρ c (Proc.devRef .tc main_v46)) (i 1)) = _
  rw [out_eq]

/-- At region 2's entry: `out` still at the buffer of %46 (region 1 only reads it, the second stretch does not write it), -/
theorem out6_eq (c : Dev nD) : V6 m ρ c main_v46 = Out m c := by
  show StableHlo.after hostOps2 (W5 m ρ c) (Proc.devRef .tc main_v46) = _
  rw [stretch2_out]
  exact ((W5_arr m ρ c 0).trans (((dat1 (V4 m ρ) c).arrAt_in 0 rfl _).trans (A_eq1 (V4 m ρ) c 0))).trans (out_eq m ρ c)

/-- the mean S/N at the buffer of %56, -/
theorem mean_eq (c : Dev nD) (q : Fin 128) : V6 m ρ c main_v56 (ix2 (0 : Fin 1) q) = colMean (Out m c) q := by
  show StableHlo.after hostOps2 (W5 m ρ c) (Proc.devRef .tc main_v56) (ix2 (0 : Fin 1) q) = _
  rw [stretch2_mean, sum_eq]
  rfl

/-- the variance Q/N − mean² at the buffer of %57, -/
theorem var_eq' (c : Dev nD) (q : Fin 128) : V6 m ρ c main_v57 (ix2 (0 : Fin 1) q) = varMoments (Out m c) q := by
  show StableHlo.after hostOps2 (W5 m ρ c) (Proc.devRef .tc main_v57) (ix2 (0 : Fin 1) q) = _
  rw [stretch2_var, sum_eq, sumsq_eq]
  rfl

/-- γ at the buffer of %58 -/
theorem gamma_eq (c : Dev nD) (q : Fin 128) : V6 m ρ c main_v58 (ix2 (0 : Fin 1) q) = m ((c : Thread nD τ).loc main_arg4) (ix1 q) := by
  show StableHlo.after hostOps2 (W5 m ρ c) (Proc.devRef .tc main_v58) (ix2 (0 : Fin 1) q) = _
  rw [stretch2_gamma, W5_of_ne m ρ c main_arg4 (by decide)]
  show StableHlo.after hostOps1_2 (StableHlo.after hostOps1_1 (StableHlo.after hostOps1 (W1 m ρ c))) (Proc.devRef .tc main_arg4) (ix1 q) = _
  rw [stretch1_keeps4, W1_of_ne m ρ c main_arg4 (by decide)]

/-- and β at the buffer of %59. -/
theorem beta_eq (c : Dev nD) (q : Fin 128) : V6 m ρ c main_v59 (ix2 (0 : Fin 1) q) = m ((c : Thread nD τ).loc main_arg5) (ix1 q) := by
  show StableHlo.after hostOps2 (W5 m ρ c) (Proc.devRef .tc main_v59) (ix2 (0 : Fin 1) q) = _
  rw [stretch2_beta, W5_of_ne m ρ c main_arg5 (by decide)]
  show StableHlo.after hostOps1_2 (StableHlo.after hostOps1_1 (StableHlo.after hostOps1 (W1 m ρ c))) (Proc.devRef .tc main_arg5) (ix1 q) = _
  rw [stretch1_keeps5, W1_of_ne m ρ c main_arg5 (by decide)]

/-- The result array %60 ends at the batch normalisation of `out` with the moment form of the variance, clamped at zero. -/
theorem result_eq (c : Dev nD) : W7 m ρ c (Proc.devRef .tc main_v60)
    = bnRelu (Out m c) (colMean (Out m c)) (varMoments (Out m c))
        (fun q => m ((c : Thread nD τ).loc main_arg4) (ix1 q)) (fun q => m ((c : Thread nD τ).loc main_arg5) (ix1 q)) := by
  refine (W7_arr m ρ c 5).trans ((Region2.final (V6 m ρ) c).trans ?_)
  show bnRelu (V6 m ρ c main_v46) (Region2.row (V6 m ρ c main_v56)) (Region2.row (V6 m ρ c main_v57))
    (Region2.row (V6 m ρ c main_v58)) (Region2.row (V6 m ρ c main_v59)) = _
  rw [out6_eq, show Region2.row (V6 m ρ c main_v56) = colMean (Out m c) from funext (mean_eq m ρ c),
    show Region2.row (V6 m ρ c main_v57) = varMoments (Out m c) from funext (var_eq' m ρ c),
    show Region2.row (V6 m ρ c main_v58) = (fun q => m ((c : Thread nD τ).loc main_arg4) (ix1 q)) from funext (gamma_eq m ρ c),
    show Region2.row (V6 m ρ c main_v59) = (fun q => m ((c : Thread nD τ).loc main_arg5) (ix1 q)) from funext (beta_eq m ρ c)]

end Cert.KernelIdeal.Value

end
-- ==== Proof.RefSide.lean ====
/-
  The reference program's result, index by index.

  The reference computes h = x·W by one contraction, runs the graph aggregation on it, and normalises every column of the
  result by its batch statistics: the mean over the 50000 rows and the mean of the squared deviations from it. Read at an
  index, its result is the batch normalisation (`bnRelu`) of the aggregated array with the centred variance.
-/
import proofs.«161189_j53137335386622_1_alg».proof.Proof.RefReadP
import proofs.«161189_j53137335386622_1_alg».proof.Proof.Aggregate
import proofs.«161189_j53137335386622_1_alg».proof.Proof.Spec
import proofs.«161189_j53137335386622_1_alg».proof.Proof.LibPlainDot

set_option maxRecDepth 16384

noncomputable section

namespace Cert.Bridge

open Cert.ReferenceIdeal Cert.ReferenceIdeal.ReadP Cert.Lib.PlainDot Idealize.ShloMosaic Idealize.ShloMosaic.ValueIdx

/-- The reference's contraction is the matrix product h = x·W. -/
theorem ref_h (x0 : (⟨S50000x128, .f32⟩ : BufTy).Contents (Elt Ideal)) (x2 : (⟨S128x128, .f32⟩ : BufTy).Contents (Elt Ideal)) :
    val_main_v0 (F := Ideal) x0 x2 = rowsByCols x0 x2 :=
  dotGeneral_eq _ rfl none _ x0 x2

/-- Operations %0 … %46 of the reference: the aggregation of the product h = x·W. -/
theorem ref_out (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) :
    val_main_v46 (F := Ideal) x0 x1 x2 x3 = aggregate (rowsByCols x0 x2) x1 x3 := by
  rw [← ref_h x0 x2]
  generalize hh : val_main_v0 (F := Ideal) x0 x2 = h
  simp only [val_main_v46, val_main_v45, val_main_v44, val_main_v43, val_main_v42, val_main_v41, val_main_cst_8, val_main_v40, val_main_v39, val_main_v38, val_main_v37, val_main_v36, val_main_v35, val_main_v34, val_main_v33, val_main_c_7, val_main_v32, val_main_v31, val_main_c_6, val_main_v30, val_main_v29, val_main_v28, val_main_v27, val_main_v26, val_main_v25, val_main_c_5, val_main_v24, val_main_v23, val_main_c_4, val_main_v22, val_main_v21, val_main_v20, val_main_v19, val_main_v18, val_main_c_3, val_main_v17, val_main_v16, val_main_c, val_main_v15, val_main_call0_v1, val_main_call0_v0, val_main_cst_2, val_main_v14, val_main_v13, val_main_v12, val_main_cst_1, val_main_v11, val_main_v10, val_main_v9, val_main_cst_0, val_main_v8, val_main_cst, val_main_v7, val_main_v6, val_main_v5, val_main_v4, val_main_v3, val_main_v2, val_main_v1]
  rw [hh]
  rfl

/-- Reading row `k` of column `q`: the summation index of either column sum is the index `(k, q)`. -/
theorem idx_sum_v47 (q : Fin 128) (k : Fin 50000) : idx_main_v47 (ix1 q) k = ix2 k q :=
  funext fun a => Fin.ext (by match a with | ⟨0, _⟩ => rfl | ⟨1, _⟩ => rfl)
theorem idx_sum_v54 (q : Fin 128) (k : Fin 50000) : idx_main_v54 (ix1 q) k = ix2 k q :=
  funext fun a => Fin.ext (by match a with | ⟨0, _⟩ => rfl | ⟨1, _⟩ => rfl)
/-- A per-column vector spread over the rows is read at the column of the index. -/
theorem idx_col_v51 (p : Fin 50000) (q : Fin 128) : idx_main_v50 (idx_main_v51 (ix2 p q)) = ix1 q :=
  funext fun a => Fin.ext (by match a with | ⟨0, _⟩ => rfl)
theorem idx_col_v58 (p : Fin 50000) (q : Fin 128) : idx_main_v57 (idx_main_v58 (ix2 p q)) = ix1 q :=
  funext fun a => Fin.ext (by match a with | ⟨0, _⟩ => rfl)
theorem idx_col_v64 (p : Fin 50000) (q : Fin 128) : idx_main_v63 (idx_main_v64 (ix2 p q)) = ix1 q :=
  funext fun a => Fin.ext (by match a with | ⟨0, _⟩ => rfl)
theorem idx_col_v67 (p : Fin 50000) (q : Fin 128) : idx_main_v66 (idx_main_v67 (ix2 p q)) = ix1 q :=
  funext fun a => Fin.ext (by match a with | ⟨0, _⟩ => rfl)
theorem idx_col_v70 (p : Fin 50000) (q : Fin 128) : idx_main_v69 (idx_main_v70 (ix2 p q)) = ix1 q :=
  funext fun a => Fin.ext (by match a with | ⟨0, _⟩ => rfl)

/-- %47 … %49: the reference's per-column mean is the mean of the column of the aggregated array. -/
theorem ref_mean (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (q : Fin 128) :
    val_main_v49 (F := Ideal) x0 x1 x2 x3 (ix1 q) = colMean (val_main_v46 (F := Ideal) x0 x1 x2 x3) q := by
  rw [val_main_v49_apply, val_main_v47_apply, val_main_v48_apply, val_main_cst_10_apply, val_main_cst_9_apply]
  generalize val_main_v46 (F := Ideal) x0 x1 x2 x3 = O
  have hsum : ∑ k : Fin 50000, O (idx_main_v47 (ix1 q) k) = colSum O q :=
    Finset.sum_congr rfl (fun k _ => congrArg O (idx_sum_v47 q k))
  rw [hsum]
  show Ideal.div (Ideal.ofBits .f32 0x00000000#32 + colSum O q) nRows = colMean O q
  rw [Ideal.ofBits_zero_f32, zero_add]
  rfl

/-- %50 … %53 at row `k` of column `q`: the squared deviation of the entry from the column's mean. -/
theorem ref_sqdev (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (k : Fin 50000) (q : Fin 128) :
    val_main_v53 (F := Ideal) x0 x1 x2 x3 (ix2 k q)
      = (val_main_v46 (F := Ideal) x0 x1 x2 x3 (ix2 k q) - colMean (val_main_v46 (F := Ideal) x0 x1 x2 x3) q)
        * (val_main_v46 (F := Ideal) x0 x1 x2 x3 (ix2 k q) - colMean (val_main_v46 (F := Ideal) x0 x1 x2 x3) q) := by
  rw [val_main_v53_apply, val_main_v52_apply, val_main_v51_apply, val_main_v50_apply, idx_col_v51, ref_mean]
  rfl

/-- %50 … %56: the reference's per-column variance is the mean of the squared deviations from the mean. -/
theorem ref_var (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (q : Fin 128) :
    val_main_v56 (F := Ideal) x0 x1 x2 x3 (ix1 q) = varCentred (val_main_v46 (F := Ideal) x0 x1 x2 x3) q := by
  rw [val_main_v56_apply, val_main_v54_apply, val_main_v55_apply, val_main_cst_12_apply, val_main_cst_11_apply]
  have hsum : ∑ k : Fin 50000, val_main_v53 (F := Ideal) x0 x1 x2 x3 (idx_main_v54 (ix1 q) k)
      = ∑ p : Fin 50000, (val_main_v46 (F := Ideal) x0 x1 x2 x3 (ix2 p q) - colMean (val_main_v46 (F := Ideal) x0 x1 x2 x3) q)
          * (val_main_v46 (F := Ideal) x0 x1 x2 x3 (ix2 p q) - colMean (val_main_v46 (F := Ideal) x0 x1 x2 x3) q) :=
    Finset.sum_congr rfl (fun k _ => by rw [idx_sum_v54, ref_sqdev])
  rw [hsum]
  generalize val_main_v46 (F := Ideal) x0 x1 x2 x3 = O
  show Ideal.div (Ideal.ofBits .f32 0x00000000#32
      + ∑ p : Fin 50000, (O (ix2 p q) - colMean O q) * (O (ix2 p q) - colMean O q)) nRows = varCentred O q
  rw [Ideal.ofBits_zero_f32, zero_add]
  rfl

/-- The reference's result: the batch normalisation, with the centred variance, of the aggregation of h = x·W. -/
theorem ref_value (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal)) :
    val_main_v72 (F := Ideal) x0 x1 x2 x3 x4 x5
      = bnRelu (aggregate (rowsByCols x0 x2) x1 x3) (colMean (aggregate (rowsByCols x0 x2) x1 x3))
          (varCentred (aggregate (rowsByCols x0 x2) x1 x3)) (fun q => x4 (ix1 q)) (fun q => x5 (ix1 q)) := by
  rw [← ref_out x0 x1 x2 x3]
  funext i
  obtain ⟨p, q, rfl⟩ : ∃ (p : Fin 50000) (q : Fin 128), i = ix2 p q := ⟨i 0, i 1, eq_ix2 i⟩
  rw [val_main_v72_apply, val_main_v71_apply, val_main_v68_apply, val_main_v65_apply, val_main_v59_apply,
    val_main_v58_apply, val_main_v57_apply, idx_col_v58, ref_mean,
    val_main_v64_apply, val_main_v63_apply, idx_col_v64, val_main_v62_apply, val_main_v61_apply, ref_var,
    val_main_v60_apply, val_main_cst_13_apply,
    val_main_v67_apply, val_main_v66_apply, idx_col_v67, val_main_v70_apply, val_main_v69_apply, idx_col_v70,
    val_main_call1_v0_apply, val_main_call1_cst_apply]
  generalize val_main_v46 (F := Ideal) x0 x1 x2 x3 = O
  rfl

end Cert.Bridge

end
-- ==== Proof.RefClaims.lean ====
/-
  The reference program's run and frame.

  Every weakly fair execution of the reference terminates with its result array at the specification — the batch
  normalisation, with the centred variance, of the aggregation of the product of the features by the weights — and with its
  six argument arrays unchanged. The run itself is the generated one; what is added here is that the term it names is the
  specification (`ref_value`), and, for the frame claim, that the arguments' part of the run is all the claim asks.
-/
import proofs.«161189_j53137335386622_1_alg».proof.Proof.RefSide
import proofs.«161189_j53137335386622_1_alg».proof.Defs
import proofs.«161189_j53137335386622_1_alg».proof.Proof.Gen.Pre_finite_inputs

set_option maxRecDepth 16384

noncomputable section

open Idealize.ShloMosaic Idealize.ShloMosaic.TcCoe Idealize.SL.Sem

namespace Cert.Proof.RefClaims

open Cert.ReferenceIdeal Cert.ReferenceIdeal.Gen Cert.Bridge Cert.Lib.PlainDot Idealize.ShloMosaic.ValueIdx

/-- The reference's run with its result at the specification: on every device the result array ends at
    `bnRelu O μ(O) var(O) γ β` with `O` the aggregation of `x·W`, `μ` the column means, `var` the centred column variances,
    and the six arguments end unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v72)
        = bnRelu (aggregate (rowsByCols (m ((c.tc : Thread nD τ).loc main_arg0)) (m ((c.tc : Thread nD τ).loc main_arg2))) (m ((c.tc : Thread nD τ).loc main_arg1)) (m ((c.tc : Thread nD τ).loc main_arg3)))
            (colMean (aggregate (rowsByCols (m ((c.tc : Thread nD τ).loc main_arg0)) (m ((c.tc : Thread nD τ).loc main_arg2))) (m ((c.tc : Thread nD τ).loc main_arg1)) (m ((c.tc : Thread nD τ).loc main_arg3))))
            (varCentred (aggregate (rowsByCols (m ((c.tc : Thread nD τ).loc main_arg0)) (m ((c.tc : Thread nD τ).loc main_arg2))) (m ((c.tc : Thread nD τ).loc main_arg1)) (m ((c.tc : Thread nD τ).loc main_arg3))))
            (fun q => (m ((c.tc : Thread nD τ).loc main_arg4)) (ix1 q)) (fun q => (m ((c.tc : Thread nD τ).loc main_arg5)) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((Cert.ReferenceIdeal.ReadP.val_main_v72_eq m c).trans (ref_value _ _ _ _ _ _)), (h c).2⟩)
    (Cert.ReferenceIdeal.ValueP.run (F := Ideal) m ρ)

/-- The reference runs and leaves its arguments unchanged (whatever the precondition says of them). -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.ValueP.run (F := Ideal) m ρ)

end Cert.Proof.RefClaims

end
-- ==== Proof.LibHostReal.lean ====
/-
  Host operations keep an array real.

  At the ideal reading a float is an extended real. Call an array REAL when none of its entries is +∞ or −∞. The lemmas here say
  that the host operations a gather / scatter-add pipeline is made of send real arrays to real arrays, WHATEVER the integer index
  operands are:
    • a gather or a broadcast only re-reads entries of its operand, so each entry of the result is some entry of the operand;
    • a scatter-add's entry is the operand's entry plus a finite sum of update entries, and a finite sum of reals is a real;
    • a contraction's entry is a finite sum of products of entries;
    • sums and products of reals are reals, and the constants 0.0 and 1.0 are reals;
    • x ↦ 1/√x is a real at every positive real, so "1/√x where x > 0, else z" is real when x and z are.
  None of them looks at a size: every statement is over arbitrary shapes and dimension records.
-/
import proofs.«161189_j53137335386622_1_alg».proof.Proof.AllReal
import Idealize.ShloMosaic.PureOps.Ideal
import Idealize.ShloMosaic.PureOps.Ideal.Laws

namespace Cert.LibHostReal

open Idealize.ShloMosaic Cert.Bridge

open scoped BigOperators

/-- A finite sum of extended reals each of which is a real number is a real number. -/
theorem exists_real_sum {ι : Type} (A : Finset ι) (f : ι → EReal) (hf : ∀ i ∈ A, ∃ r : ℝ, f i = (r : EReal)) :
    ∃ r : ℝ, ∑ i ∈ A, f i = (r : EReal) := by
  classical
  induction A using Finset.induction_on with
  | empty => exact ⟨0, by simp⟩
  | insert a A ha ih =>
    obtain ⟨ra, hra⟩ := hf a (Finset.mem_insert_self a A)
    obtain ⟨rs, hrs⟩ := ih (fun i hi => hf i (Finset.mem_insert_of_mem hi))
    exact ⟨ra + rs, by rw [Finset.sum_insert ha, hra, hrs, EReal.coe_add]⟩

/-- The identity keeps an array real (a change of format is the identity on extended reals). -/
theorem allReal_id {S : Shape} {x : S.Idx → EReal} (hx : AllReal x) : AllReal (id x) := hx

/-- A gather's entry is SOME entry of its operand (which one depends on the indices, clamped into range):
    a gather of a real array is real, whatever the indices. -/
theorem allReal_gather {s si t : Shape} {w : Nat} (d : GatherDims s si t) {x : s.Idx → EReal} (idx : IVec si w)
    (hx : AllReal x) : AllReal (Host.gather d x idx) :=
  fun j => hx (d.operandIdx j idx)

/-- A broadcast's entry is the operand's entry at the index the broadcast reads: a broadcast of a real array is real. -/
theorem allReal_broadcastInDim {s : Shape} (t : Shape) (dims : Fin s.rank → Fin t.rank) (hb : s.BroadcastsInDim t dims)
    {x : s.Idx → EReal} (hx : AllReal x) : AllReal (broadcastInDim t dims hb x) :=
  fun _ => hx _

/-- An accumulating scatter's entry is the operand's entry plus the finite sum of the update entries whose index lands
    on it (an update that lands outside contributes nothing): real when the operand and the updates are, whatever the indices. -/
theorem allReal_scatterAdd {s si u : Shape} {w : Nat} (d : ScatterDims s si u) {x : s.Idx → EReal} (idx : IVec si w)
    {upd : u.Idx → EReal} (hx : AllReal x) (hupd : AllReal upd) :
    AllReal (Host.scatterAdd (F := Ideal) (φ := .f32) d x idx upd) := by
  intro i
  obtain ⟨rx, hrx⟩ := hx i
  obtain ⟨rs, hrs⟩ := exists_real_sum (Finset.univ.filter (fun j => d.resultIdx? j idx = some i)) upd (fun j _ => hupd j)
  refine ⟨rx + rs, ?_⟩
  show x i + ∑ j ∈ Finset.univ.filter (fun j => d.resultIdx? j idx = some i), upd j = _
  rw [hrx, hrs, EReal.coe_add]

/-- The entrywise product of two real arrays is real. -/
theorem allReal_mulf {S : Shape} {x y : S.Idx → EReal} (hx : AllReal x) (hy : AllReal y) :
    AllReal (mulf (F := Ideal) (φ := .f32) x y) := by
  intro i
  obtain ⟨rx, hrx⟩ := hx i
  obtain ⟨ry, hry⟩ := hy i
  refine ⟨rx * ry, ?_⟩
  show x i * y i = _
  rw [hrx, hry, EReal.coe_mul]

/-- The entrywise sum of two real arrays is real. -/
theorem allReal_addf {S : Shape} {x y : S.Idx → EReal} (hx : AllReal x) (hy : AllReal y) :
    AllReal (addf (F := Ideal) (φ := .f32) x y) := by
  intro i
  obtain ⟨rx, hrx⟩ := hx i
  obtain ⟨ry, hry⟩ := hy i
  refine ⟨rx + ry, ?_⟩
  show x i + y i = _
  rw [hrx, hry, EReal.coe_add]

/-- The constant 0.0 is the real number 0 at every entry. -/
theorem allReal_const_zero (S : Shape) : AllReal (constant (F := Ideal) S .f32 0x00000000#32) := by
  intro _
  refine ⟨0, ?_⟩
  show Ideal.ofBits .f32 0x00000000#32 = _
  rw [Ideal.ofBits_zero_f32, EReal.coe_zero]

/-- The constant 1.0 (sign 0, exponent field 127, fraction 0) is a real number at every entry. -/
theorem allReal_const_one (S : Shape) : AllReal (constant (F := Ideal) S .f32 0x3F800000#32) := by
  intro _
  refine ⟨1, ?_⟩
  show Ideal.ofBits .f32 0x3F800000#32 = _
  simp [Ideal.ofBits, Ideal.ieee]
  rw [← EReal.coe_mul, ← EReal.coe_one]
  congr 1
  norm_num

/-- The reciprocal square root of a positive real r is the real (√r)⁻¹. -/
theorem rsqrt_coe_of_pos {r : ℝ} (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-- "1/√deg where deg > 0, else z": where the comparison holds the entry is the reciprocal square root of a POSITIVE real, a real;
    elsewhere it is the entry of z. So the selection is real when deg and z are (the compared array z0 being 0 everywhere). -/
theorem allReal_where_pos_rsqrt {S : Shape} {deg z0 z : S.Idx → EReal} (hdeg : AllReal deg) (hz0 : ∀ i, z0 i = 0)
    (hz : AllReal z) :
    AllReal (select (cmpf (F := Ideal) (φ := .f32) .ogt deg z0) (Host.rsqrt (F := Ideal) (φ := .f32) deg) z) := by
  intro i
  obtain ⟨r, hr⟩ := hdeg i
  show ∃ q : ℝ, (if Ideal.cmp .ogt (deg i) (z0 i) = 1 then Ideal.rsqrt (deg i) else z i) = (q : EReal)
  rw [hz0 i, hr]
  by_cases hpos : (0 : ℝ) < r
  · refine ⟨(Real.sqrt r)⁻¹, ?_⟩
    rw [rsqrt_coe_of_pos hpos]
    split_ifs <;> first | rfl | skip
    rename_i hc
    exact absurd (show Ideal.cmp .ogt (r : EReal) 0 = 1 by
      show BitVec.ofBool (decide ((0 : EReal) < (r : EReal))) = 1
      rw [decide_eq_true (by exact_mod_cast hpos)]; rfl) hc
  · have hc : ¬ Ideal.cmp .ogt (r : EReal) 0 = 1 := by
      show ¬ BitVec.ofBool (decide ((0 : EReal) < (r : EReal))) = 1
      rw [decide_eq_false (by exact_mod_cast hpos)]; decide
    rw [if_neg hc]
    exact hz i

/-- A contraction's entry is the finite sum, over the contracted index, of products of one entry of each operand:
    real when both operands are. -/
theorem allReal_dotGeneral {sl sr so : Shape} (d : DotDims sl sr so) (prec : Option ContractPrecision)
    {l : sl.Idx → EReal} {r : sr.Idx → EReal} (hl : AllReal l) (hr : AllReal r) :
    AllReal (Host.dotGeneral (F := Ideal) (φ₁ := .f32) (φ₂ := .f32) d prec l r) := by
  intro j
  obtain ⟨q, hq⟩ := exists_real_sum (Finset.univ : Finset d.contr.Idx) (fun k => l (d.lhsIdx j k) * r (d.rhsIdx j k))
    (fun k _ => by
      obtain ⟨a, ha⟩ := hl (d.lhsIdx j k)
      obtain ⟨b, hb⟩ := hr (d.rhsIdx j k)
      exact ⟨a * b, by rw [ha, hb, EReal.coe_mul]⟩)
  refine ⟨q, ?_⟩
  show (0 : EReal) + ∑ k : d.contr.Idx, l (d.lhsIdx j k) * r (d.rhsIdx j k) = _
  rw [zero_add, hq]

end Cert.LibHostReal
-- ==== Proof.AggregateReal.lean ====
/-
  The graph aggregation keeps an array real.

  `aggregate h e b` is a chain of host operations on the transformed features h, the integer edge list e and the bias b:
  gathers, broadcasts, scatter-adds, entrywise sums and products, the constants 0.0 and 1.0, and one selection
  "1/√deg where deg > 0, else 0". Each of them sends real arrays to real arrays whatever the integer operands are, so when
  every entry of h and of b is a real number, every entry of `aggregate h e b` is a real number. The proof follows the chain
  from the outside in; the integer operands (the edge rows, the self loops, the wrapped indices) are never opened: they only
  ever sit in index positions.
-/
import proofs.«161189_j53137335386622_1_alg».proof.Proof.Aggregate
import proofs.«161189_j53137335386622_1_alg».proof.Proof.LibHostReal

set_option maxRecDepth 16384

namespace Cert.Bridge

open Idealize.ShloMosaic Cert.ReferenceIdeal Cert.LibHostReal

variable [Cert.ReferenceIdeal.Facts]
open Cert.ReferenceIdeal.Facts₀ Cert.ReferenceIdeal.Facts

/-- If every entry of the features `h` and of the bias `b` is a real number, so is every entry of the aggregation
    `aggregate h e b`, for every edge list `e`: the degrees are finite sums of ones, their reciprocal square roots are taken
    only where the degree is positive (and replaced by 0 elsewhere), and the output is a finite sum of products of reals
    plus a real. -/
theorem aggregate_allReal (h : (⟨S50000x128, .f32⟩ : BufTy).Contents (Elt Ideal))
    (e : (⟨S2x1600000, .i32⟩ : BufTy).Contents (Elt Ideal)) (b : (⟨S128, .f32⟩ : BufTy).Contents (Elt Ideal))
    (hh : AllReal (S := S50000x128) h) (hb : AllReal (S := S128) b) : AllReal (S := S50000x128) (aggregate h e b) := by
  -- the constants
  have hzero : AllReal (constant (F := Ideal) S_ .f32 0x00000000#32) := allReal_const_zero S_
  have hone : AllReal (constant (F := Ideal) S_ .f32 0x3F800000#32) := allReal_const_one S_
  unfold aggregate
  -- out = scatter-add of (h[src] · norm) into zeros, plus the broadcast bias
  refine allReal_addf (allReal_scatterAdd _ _ (allReal_broadcastInDim _ _ _ hzero)
    (allReal_mulf (allReal_gather _ _ hh) (allReal_broadcastInDim _ _ _ (allReal_broadcastInDim _ _ _
      (allReal_mulf (allReal_gather _ _ ?_) (allReal_gather _ _ ?_))))))
    (allReal_broadcastInDim _ _ _ (allReal_broadcastInDim _ _ _ hb))
  -- dinv = 1/√deg where deg > 0, else 0, with deg = scatter-add of ones into zeros (the same array at both gathers)
  all_goals
    exact allReal_where_pos_rsqrt
      (allReal_scatterAdd _ _ (allReal_broadcastInDim _ _ _ hzero) (allReal_broadcastInDim _ _ _ hone))
      (fun _ => Ideal.ofBits_zero_f32)
      (allReal_broadcastInDim _ _ _ (allReal_id hzero))

end Cert.Bridge
-- ==== Proof.Moments.lean ====
/-
  The two spellings of the batch variance agree on real data.

  The kernel's variance of a column is the mean of the squares minus the square of the mean, the reference's is the mean of the
  squared deviations; over the extended reals they agree when every entry of the array is a real number. The row count the
  programs divide by is the f32 pattern of 50000.0, which is the real number 50000, the number of rows summed.
-/
import proofs.«161189_j53137335386622_1_alg».proof.Proof.Spec
import proofs.«161189_j53137335386622_1_alg».proof.Proof.LibBatchMoments

namespace Cert.Bridge

open Idealize.ShloMosaic Idealize.ShloMosaic.ValueIdx

/-- The programs' row count, the f32 pattern `0x47435000`, is the real number 50000:
    `(2^23 + 0x435000) · 2^(142 − 127 − 23) = 12800000 / 256`. -/
theorem nRows_eq : nRows = ((50000 : ℝ) : EReal) := by
  simp [nRows, Ideal.ofBits, Ideal.ieee, -EReal.coe_mul]
  norm_num

/-- For an array of reals the two spellings of a column's variance agree:
    `Q(q)/N − μ(q)² = Σ_p (o[p,q] − μ(q))²/N`. -/
theorem var_eq (o : SNxD.Idx → EReal) (ho : AllReal o) (q : Fin 128) : varMoments o q = varCentred o q := by
  choose r hr using ho
  have h := Cert.LibBatchMoments.var_two_ways (ι := Fin 50000) (fun p => r (ix2 p q)) (50000 : ℝ)
    (by norm_num) (by simp [Fintype.card_fin])
  have ho' : ∀ p : Fin 50000, o (ix2 p q) = ((r (ix2 p q) : ℝ) : EReal) := fun p => hr _
  unfold varMoments varCentred colMean colSumSq colSum
  rw [nRows_eq]
  simp only [ho']
  exact h

/-- The mean of a column of reals is a real. -/
theorem colMean_real (o : SNxD.Idx → EReal) (ho : AllReal o) (q : Fin 128) : ∃ m : ℝ, colMean o q = (m : EReal) := by
  choose r hr using ho
  refine ⟨(∑ p : Fin 50000, r (ix2 p q)) * (1 / 50000), ?_⟩
  have ho' : ∀ p : Fin 50000, o (ix2 p q) = ((r (ix2 p q) : ℝ) : EReal) := fun p => hr _
  unfold colMean colSum
  rw [nRows_eq, Ideal.div_coe (by norm_num), EReal.coe_mul, Cert.LibBatchMoments.coe_sum]
  simp only [ho']

end Cert.Bridge
-- ==== Proof.OutReal.lean ====
/-
  The aggregated array is real, and on it the two batch normalisations agree.

  A matrix product of real arrays is real (each entry is a finite sum of products of reals), so with real features, weights and
  bias the aggregated array `aggregate (x·W) e b` is real. On a real array the two spellings of a column's variance agree, so the
  batch normalisation taken with either is one function.
-/
import proofs.«161189_j53137335386622_1_alg».proof.Proof.AggregateReal
import proofs.«161189_j53137335386622_1_alg».proof.Proof.LibHostReal
import proofs.«161189_j53137335386622_1_alg».proof.Proof.LibPlainDot
import proofs.«161189_j53137335386622_1_alg».proof.Proof.Moments
import proofs.«161189_j53137335386622_1_alg».proof.Proof.Spec

namespace Cert.Bridge

open Idealize.ShloMosaic Idealize.ShloMosaic.ValueIdx Cert.ReferenceIdeal Cert.Lib.PlainDot Cert.LibHostReal

/-- A matrix product of real arrays is real: entry `(a, b)` is the finite sum `∑ k, l[a,k] · r[k,b]` of products of reals. -/
theorem allReal_rowsByCols {M K N : ℕ} (l : (⟨2, ![M, K]⟩ : Shape).Idx → EReal) (r : (⟨2, ![K, N]⟩ : Shape).Idx → EReal)
    (hl : AllReal l) (hr : AllReal r) : AllReal (rowsByCols l r) := by
  intro j
  exact exists_real_sum (Finset.univ : Finset (Fin K)) (fun k => l (ix2 (j 0) k) * r (ix2 k (j 1)))
    (fun k _ => by
      obtain ⟨a, ha⟩ := hl (ix2 (j 0) k)
      obtain ⟨b, hb⟩ := hr (ix2 k (j 1))
      exact ⟨a * b, by rw [ha, hb, EReal.coe_mul]⟩)

/-- With real features `x0`, weights `x2` and bias `x3`, the aggregation of `x0·x2` is real, whatever the edge list. -/
theorem out_allReal [Cert.ReferenceIdeal.Facts] (x0 : (⟨S50000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (h0 : AllReal (S := S50000x128) x0) (h2 : AllReal (S := S128x128) x2) (h3 : AllReal (S := S128) x3) :
    AllReal (S := S50000x128) (aggregate (rowsByCols x0 x2) x1 x3) :=
  aggregate_allReal (rowsByCols x0 x2) x1 x3 (allReal_rowsByCols x0 x2 h0 h2) h3

/-- On a real array the batch normalisation with the variance `Q/N − μ²` is the one with the variance `Σ (o − μ)²/N`. -/
theorem bnRelu_var_eq (O : SNxD.Idx → EReal) (hO : AllReal O) (g be : Fin 128 → EReal) :
    bnRelu O (colMean O) (varMoments O) g be = bnRelu O (colMean O) (varCentred O) g be :=
  congrArg (fun v => bnRelu O (colMean O) v g be) (funext fun q => var_eq O hO q)

end Cert.Bridge
-- ==== Proof.PreReal.lean ====
/-
  The precondition "every float input is finite", read entry by entry: each entry of each float input is a real number.

  The printed predicate is a conjunction of five `all(|x| < +∞)`, one per float input. Over the extended reals `|x|` is
  `max x (-x)` and the pattern `0x7F800000` denotes `⊤`, so `|x| < ⊤` rules out `x = ⊤` and `x = ⊥`: what is left is a real.
-/
import proofs.«161189_j53137335386622_1_alg».proof.Pre_finite_inputs
import proofs.«161189_j53137335386622_1_alg».proof.Proof.AllReal
import Idealize.ShloMosaic.PureOps.Ideal
import Idealize.ShloMosaic.Lib.ReduceAll
import Idealize.ShloMosaic.Lib.ValueIdx

namespace Cert.PreReal

open Idealize.ShloMosaic Idealize.ShloMosaic.ValueIdx

/-- The rank-0 shape has one index. -/
instance : Subsingleton Cert.Pre_finite_inputs.S_.Idx := ⟨fun a b => funext fun d => d.elim0⟩

/-- One entry: an extended real whose absolute value `max x (-x)` is strictly below `+∞` (the pattern `0x7F800000`)
    is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One array: if `all(|x| < +∞)` came out true then every entry of `x` is a real number. -/
theorem allReal_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (e : Host.reduce IntOp.andi
          (cmpf .olt (Host.absf (F := Ideal) x)
            (broadcastInDim S ![] hb (constant (F := Ideal) Cert.Pre_finite_inputs.S_ .f32 0x7F800000#32)))
          init hr hu ix0 = 1#1) :
    Cert.Bridge.AllReal x := by
  intro i
  have hi := Host.reduce_andi_all _ init hr hu ix0 e i
  exact real_of_abs_lt_inf (x i) hi

/-- The printed precondition gives: every entry of every float input is a real number. -/
theorem allReal_of_pre [Cert.Pre_finite_inputs.Facts]
    (x0 : FVec Ideal Cert.Pre_finite_inputs.S50000x128 .f32) (x1 : IVec Cert.Pre_finite_inputs.S2x1600000 32)
    (x2 : FVec Ideal Cert.Pre_finite_inputs.S128x128 .f32) (x3 x4 x5 : FVec Ideal Cert.Pre_finite_inputs.S128 .f32)
    (h : Cert.Pre_finite_inputs.fn (F := Ideal) x0 x1 x2 x3 x4 x5 = fun _ => 1#1) :
    Cert.Bridge.AllReal x0 ∧ Cert.Bridge.AllReal x2 ∧ Cert.Bridge.AllReal x3 ∧ Cert.Bridge.AllReal x4
      ∧ Cert.Bridge.AllReal x5 := by
  have h0 := congrFun h ix0
  dsimp only [Cert.Pre_finite_inputs.fn, Cert.Pre_finite_inputs.fn_part1, andi] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨allReal_of_all x0 _ _ _ _ h1, allReal_of_all x2 _ _ _ _ h2, allReal_of_all x3 _ _ _ _ h3,
    allReal_of_all x4 _ _ _ _ h4, allReal_of_all x5 _ _ _ _ h5⟩

end Cert.PreReal
-- ==== Proof.Claims.lean ====
/-
  The certificate's claims, assembled.

  Both programs compute the batch normalisation of one array, the aggregation O of the product of the features by the
  weights: the kernel with the variance of a column taken as the mean of the squares minus the square of the mean, the
  reference with the mean of the squared deviations. Under the precondition every float input is finite, so every entry of O
  is a real number, and on a real array the two variances agree: the two results are one array.
-/
import proofs.«161189_j53137335386622_1_alg».proof.Defs
import proofs.«161189_j53137335386622_1_alg».proof.Proof.Gen.Kernel.Frame
import proofs.«161189_j53137335386622_1_alg».proof.Proof.Gen.KernelIdeal.Frame
import proofs.«161189_j53137335386622_1_alg».proof.Proof.KRun
import proofs.«161189_j53137335386622_1_alg».proof.Proof.KValue
import proofs.«161189_j53137335386622_1_alg».proof.Proof.RefClaims
import proofs.«161189_j53137335386622_1_alg».proof.Proof.OutReal
import proofs.«161189_j53137335386622_1_alg».proof.Proof.PreReal
import proofs.«161189_j53137335386622_1_alg».proof.Proof.Gen.Kernel
import proofs.«161189_j53137335386622_1_alg».proof.Proof.Gen.KernelIdeal
import proofs.«161189_j53137335386622_1_alg».proof.Proof.Gen.ReferenceIdeal
import proofs.«161189_j53137335386622_1_alg».proof.Proof.Gen.Pre_finite_inputs

set_option maxRecDepth 16384

noncomputable section

open Idealize.ShloMosaic Idealize.ShloMosaic.TcCoe Idealize.SL.Sem

namespace Cert.Proof.Claims

open Cert.Bridge

/-- At the ideal instance, from memories agreeing on the arguments of which the precondition holds, the kernel and the
    reference both run, end with equal results and leave their arguments unchanged: the kernel's result is the batch
    normalisation of the aggregated array with the moment variance, the reference's the one with the centred variance, and
    under the precondition the aggregated array is real, where the two variances are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W7 m ρ c (Proc.devRef .tc Cert.KernelIdeal.main_v60),
    Cert.KernelIdeal.Gen.run_result (F := Ideal) m ρ, ?_⟩
  refine (θ_run Cert.ReferenceIdeal.defs _ _).mono (fun _ h c => ⟨(h c).1.trans ?_, (h c).2⟩)
    (Cert.Proof.RefClaims.ref_run m' ρ')
  obtain ⟨e0, e1, e2, e3, e4, e5⟩ := hagree c
  obtain ⟨h0, h2, h3, -, -⟩ := Cert.PreReal.allReal_of_pre _ _ _ _ _ _ (hpre c)
  rw [e0, e1, e2, e3, e4, e5]
  exact (bnRelu_var_eq _ (out_allReal _ _ _ _ h0 h2 h3) _ _).symm.trans (Cert.KernelIdeal.Value.result_eq m ρ c).symm

/-- Everything the certificate claims, under the generated witnesses of the programs' stated facts. -/
theorem claim_all : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, Cert.Proof.RefClaims.frame_ri,
    trivial, algebraic⟩

end Cert.Proof.Claims

end
-- ==== Proof.lean ====
/-
  A graph-convolution layer followed by batch normalisation and a clamp at zero: the Pallas kernel against its jnp reference,
  on the extended reals.

  Both programs compute h = x·W, then on the host out = Â h + b, where Â is the degree-normalised adjacency of the edge list with
  self loops (the same printed operations on both sides, carried as one function `aggregate`), then per column q of the
  50000×128 array `out` the mean μ(q) = Σ_p out[p,q]/N and a variance, and finally
  max(((out − μ)·rsqrt(var + ε))·γ + β, 0).
  The kernel computes h block of rows by block of rows on the matrix unit (the rows of a product are the product of the rows),
  accumulates Σ out and Σ out² over ten blocks of rows in two one-row outputs (a finite sum may be grouped by blocks), and
  takes var = Σ out²/N − μ²; the reference takes var = Σ (out − μ)²/N. The two variances agree where every entry of `out` is a
  real number — expand the square and use Σ_p μ = N·μ — and `out` is real when x, W and b are: a contraction, a gather, a
  scatter-add and 1/√deg at deg > 0 keep real entries real. That is what the precondition (every float input finite) gives.
  At an infinite entry the two variances differ (∞ − ∞ is −∞ one way and the square of −∞ is +∞ the other), so the
  precondition is used, and only there.

  The modules: Aggregate (the shared host chain), Spec (the column moments and the normalisation, index by index), LibBatchMoments and
  Moments (the variance identity and the sum by blocks), LibHostReal / AggregateReal / OutReal / PreReal (real entries stay real;
  the precondition read as "every entry is real"), KRegion0 / KRegion1 / KRegion2 (what each grid region leaves in its output
  arrays), KFold / KStretch2 (the host operations between the regions), KRun and KValue (the kernel's run with its result as the
  specification), RefSide and RefClaims (the reference's result as the specification), Claims (the five claims).
-/
import proofs.«161189_j53137335386622_1_alg».proof.Proof.Claims

noncomputable section

namespace Cert.Proof

/-- The three frames, the (empty) idealization ledger and the algebraic equivalence, under the generated witnesses of the
    programs' stated side conditions. -/
theorem claim : Cert.Claim := Cert.Proof.Claims.claim_all

end Cert.Proof

end
